-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1126400x128 : Shape := ⟨2, ![1126400, 128]⟩
abbrev S2x1126400 : Shape := ⟨2, ![2, 1126400]⟩
abbrev S2x112640 : Shape := ⟨2, ![2, 112640]⟩
abbrev S2x10240 : Shape := ⟨2, ![2, 10240]⟩
abbrev S256x128 : Shape := ⟨2, ![256, 128]⟩
abbrev S256 : Shape := ⟨1, ![256]⟩
abbrev S256x256 : Shape := ⟨2, ![256, 256]⟩
abbrev S47x256 : Shape := ⟨2, ![47, 256]⟩
abbrev S47 : Shape := ⟨1, ![47]⟩
abbrev S_ : Shape := ⟨0, ![]⟩

class Facts : Prop where
  bcast_S_S1126400x128 : S_.BroadcastsInDim S1126400x128 (![] : Fin 0 → Fin S1126400x128.rank)
  reducesTo_S1126400x128_S_d0_1 : S1126400x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S47x256 : S_.BroadcastsInDim S47x256 (![] : Fin 0 → Fin S47x256.rank)
  reducesTo_S47x256_S_d0_1 : S47x256.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg10 : FVec F S47x256 .f32) (main_arg11 : FVec F S47 .f32) (main_arg12 : FVec F S47x256 .f32) (main_v33 : IVec S_ 1) : IVec S_ 1 :=
  let main_v34 : FVec F S47x256 .f32 := Host.absf main_arg10
  let main_cst_12 : FVec F S_ .f32 := constant S_ .f32 0x7F800000#32
  let main_v35 : FVec F S47x256 .f32 := broadcastInDim S47x256 ![] bcast_S_S47x256 main_cst_12
  let main_v36 : IVec S47x256 1 := cmpf .olt main_v34 main_v35
  let main_c_13 : IVec S_ 1 := constantI S_ 1 1#1
  let main_v37 : IVec S_ 1 := (fun x v => Host.reduce IntOp.andi x v reducesTo_S47x256_S_d0_1 h_S_) main_v36 main_c_13
  let main_v38 : IVec S_ 1 := andi main_v33 main_v37
  let main_v39 : FVec F S47 .f32 := Host.absf main_arg11
  let main_cst_14 : FVec F S_ .f32 := constant S_ .f32 0x7F800000#32
  let main_v40 : FVec F S47 .f32 := broadcastInDim S47 ![] bcast_S_S47 main_cst_14
  let main_v41 : IVec S47 1 := cmpf .olt main_v39 main_v40
  let main_c_15 : IVec S_ 1 := constantI S_ 1 1#1
  let main_v42 : IVec S_ 1 := (fun x v => Host.reduce IntOp.andi x v reducesTo_S47_S_d0 h_S_) main_v41 main_c_15
  let main_v43 : IVec S_ 1 := andi main_v38 main_v42
  let main_v44 : FVec F S47x256 .f32 := Host.absf main_arg12
  let main_cst_16 : FVec F S_ .f32 := constant S_ .f32 0x7F800000#32
  let main_v45 : FVec F S47x256 .f32 := broadcastInDim S47x256 ![] bcast_S_S47x256 main_cst_16
  let main_v46 : IVec S47x256 1 := cmpf .olt main_v44 main_v45
  let main_c_17 : IVec S_ 1 := constantI S_ 1 1#1
  let main_v47 : IVec S_ 1 := (fun x v => Host.reduce IntOp.andi x v reducesTo_S47x256_S_d0_1 h_S_) main_v46 main_c_17
  let main_v48 : IVec S_ 1 := andi main_v43 main_v47
  main_v48

def fn_part1 {F : FTy → Type} [FloatOps F] (main_arg7 : FVec F S256x256 .f32) (main_arg8 : FVec F S256 .f32) (main_arg9 : FVec F S256x256 .f32) (main_arg10 : FVec F S47x256 .f32) (main_arg11 : FVec F S47 .f32) (main_arg12 : FVec F S47x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x256 .f32 := Host.absf main_arg7
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg8
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg9
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg10 main_arg11 main_arg12 main_v33

def fn {F : FTy → Type} [FloatOps F] (main_arg0 : FVec F S1126400x128 .f32) (main_arg1 : IVec S2x1126400 32) (main_arg2 : IVec S2x112640 32) (main_arg3 : IVec S2x10240 32) (main_arg4 : FVec F S256x128 .f32) (main_arg5 : FVec F S256 .f32) (main_arg6 : FVec F S256x128 .f32) (main_arg7 : FVec F S256x256 .f32) (main_arg8 : FVec F S256 .f32) (main_arg9 : FVec F S256x256 .f32) (main_arg10 : FVec F S47x256 .f32) (main_arg11 : FVec F S47 .f32) (main_arg12 : FVec F S47x256 .f32) : IVec S_ 1 :=
  let main_v0 : FVec F S1126400x128 .f32 := Host.absf main_arg0
  let main_cst : FVec F S_ .f32 := constant S_ .f32 0x7F800000#32
  let main_v1 : FVec F S1126400x128 .f32 := broadcastInDim S1126400x128 ![] bcast_S_S1126400x128 main_cst
  let main_v2 : IVec S1126400x128 1 := cmpf .olt main_v0 main_v1
  let main_c : IVec S_ 1 := constantI S_ 1 1#1
  let main_v3 : IVec S_ 1 := (fun x v => Host.reduce IntOp.andi x v reducesTo_S1126400x128_S_d0_1 h_S_) main_v2 main_c
  let main_v4 : FVec F S256x128 .f32 := Host.absf main_arg4
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg6
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg7 main_arg8 main_arg9 main_arg10 main_arg11 main_arg12 main_v13 main_v16
-- ==== Kernel.lean ====
abbrev S1126400x128 : Shape := ⟨2, ![1126400, 128]⟩
abbrev S2x1126400 : Shape := ⟨2, ![2, 1126400]⟩
abbrev S2x112640 : Shape := ⟨2, ![2, 112640]⟩
abbrev S2x10240 : Shape := ⟨2, ![2, 10240]⟩
abbrev S256x128 : Shape := ⟨2, ![256, 128]⟩
abbrev S256 : Shape := ⟨1, ![256]⟩
abbrev S256x256 : Shape := ⟨2, ![256, 256]⟩
abbrev S47x256 : Shape := ⟨2, ![47, 256]⟩
abbrev S47 : Shape := ⟨1, ![47]⟩
abbrev S1x1126400 : Shape := ⟨2, ![1, 1126400]⟩
abbrev S1126400 : Shape := ⟨1, ![1126400]⟩
abbrev S_ : Shape := ⟨0, ![]⟩
abbrev S1126400x1 : Shape := ⟨2, ![1126400, 1]⟩
abbrev S112640x128 : Shape := ⟨2, ![112640, 128]⟩
abbrev S112640 : Shape := ⟨1, ![112640]⟩
abbrev S112640x1 : Shape := ⟨2, ![112640, 1]⟩
abbrev S128x256 : Shape := ⟨2, ![128, 256]⟩
abbrev S1x256 : Shape := ⟨2, ![1, 256]⟩
abbrev S112640x256 : Shape := ⟨2, ![112640, 256]⟩
abbrev S2048x128 : Shape := ⟨2, ![2048, 128]⟩
abbrev S2048x256 : Shape := ⟨2, ![2048, 256]⟩
abbrev S1x112640 : Shape := ⟨2, ![1, 112640]⟩
abbrev S11264x256 : Shape := ⟨2, ![11264, 256]⟩
abbrev S11264 : Shape := ⟨1, ![11264]⟩
abbrev S11264x1 : Shape := ⟨2, ![11264, 1]⟩
abbrev S1024x256 : Shape := ⟨2, ![1024, 256]⟩
abbrev S1x10240 : Shape := ⟨2, ![1, 10240]⟩
abbrev S10240 : Shape := ⟨1, ![10240]⟩
abbrev S10240x1 : Shape := ⟨2, ![10240, 1]⟩
abbrev S10240x256 : Shape := ⟨2, ![10240, 256]⟩
abbrev S1024 : Shape := ⟨1, ![1024]⟩
abbrev S1024x1 : Shape := ⟨2, ![1024, 1]⟩
abbrev S256x47 : Shape := ⟨2, ![256, 47]⟩
abbrev S1x47 : Shape := ⟨2, ![1, 47]⟩
abbrev S1024x47 : Shape := ⟨2, ![1024, 47]⟩

abbrev nBuf : Space → Nat
  | .hbm => 121
  | .vmem => 24
  | .smem => 0
  | _ => 0

abbrev bufTy : (tb : Table) → Fin (tcTables nBuf tb) → BufTy
  | .hbm, ⟨0, _⟩ => ⟨S1126400x128, .f32⟩
  | .hbm, ⟨1, _⟩ => ⟨S2x1126400, .i32⟩
  | .hbm, ⟨2, _⟩ => ⟨S2x112640, .i32⟩
  | .hbm, ⟨3, _⟩ => ⟨S2x10240, .i32⟩
  | .hbm, ⟨4, _⟩ => ⟨S256x128, .f32⟩
  | .hbm, ⟨5, _⟩ => ⟨S256, .f32⟩
  | .hbm, ⟨6, _⟩ => ⟨S256x128, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S47x256, .f32⟩
  | .hbm, ⟨11, _⟩ => ⟨S47, .f32⟩
  | .hbm, ⟨12, _⟩ => ⟨S47x256, .f32⟩
  | .hbm, ⟨13, _⟩ => ⟨S1x1126400, .i32⟩
  | .hbm, ⟨14, _⟩ => ⟨S1126400, .i32⟩
  | .hbm, ⟨15, _⟩ => ⟨S1x1126400, .i32⟩
  | .hbm, ⟨16, _⟩ => ⟨S1126400, .i32⟩
  | .hbm, ⟨17, _⟩ => ⟨S_, .i32⟩
  | .hbm, ⟨18, _⟩ => ⟨S1126400, .i32⟩
  | .hbm, ⟨19, _⟩ => ⟨S1126400, .i1⟩
  | .hbm, ⟨20, _⟩ => ⟨S_, .i32⟩
  | .hbm, ⟨21, _⟩ => ⟨S1126400, .i32⟩
  | .hbm, ⟨22, _⟩ => ⟨S1126400, .i32⟩
  | .hbm, ⟨23, _⟩ => ⟨S1126400, .i32⟩
  | .hbm, ⟨24, _⟩ => ⟨S1126400x1, .i32⟩
  | .hbm, ⟨25, _⟩ => ⟨S1126400x128, .f32⟩
  | .hbm, ⟨26, _⟩ => ⟨S_, .f32⟩
  | .hbm, ⟨27, _⟩ => ⟨S112640x128, .f32⟩
  | .hbm, ⟨28, _⟩ => ⟨S1126400x1, .i32⟩
  | .hbm, ⟨29, _⟩ => ⟨S112640x128, .f32⟩
  | .hbm, ⟨30, _⟩ => ⟨S_, .f32⟩
  | .hbm, ⟨31, _⟩ => ⟨S1126400, .f32⟩
  | .hbm, ⟨32, _⟩ => ⟨S_, .f32⟩
  | .hbm, ⟨33, _⟩ => ⟨S112640, .f32⟩
  | .hbm, ⟨34, _⟩ => ⟨S1126400x1, .i32⟩
  | .hbm, ⟨35, _⟩ => ⟨S112640, .f32⟩
  | .hbm, ⟨36, _⟩ => ⟨S_, .f32⟩
  | .hbm, ⟨37, _⟩ => ⟨S112640, .f32⟩
  | .hbm, ⟨38, _⟩ => ⟨S112640, .f32⟩
  | .hbm, ⟨39, _⟩ => ⟨S112640x1, .f32⟩
  | .hbm, ⟨40, _⟩ => ⟨S112640x128, .f32⟩
  | .hbm, ⟨41, _⟩ => ⟨S112640x128, .f32⟩
  | .hbm, ⟨42, _⟩ => ⟨S112640x128, .f32⟩
  | .hbm, ⟨43, _⟩ => ⟨S128x256, .f32⟩
  | .hbm, ⟨44, _⟩ => ⟨S128x256, .f32⟩
  | .hbm, ⟨45, _⟩ => ⟨S128x256, .bf16⟩
  | .hbm, ⟨46, _⟩ => ⟨S128x256, .bf16⟩
  | .hbm, ⟨47, _⟩ => ⟨S1x256, .f32⟩
  | .hbm, ⟨48, _⟩ => ⟨S112640x256, .f32⟩
  | .hbm, ⟨49, _⟩ => ⟨S1x112640, .i32⟩
  | .hbm, ⟨50, _⟩ => ⟨S112640, .i32⟩
  | .hbm, ⟨51, _⟩ => ⟨S1x112640, .i32⟩
  | .hbm, ⟨52, _⟩ => ⟨S112640, .i32⟩
  | .hbm, ⟨53, _⟩ => ⟨S_, .i32⟩
  | .hbm, ⟨54, _⟩ => ⟨S112640, .i32⟩
  | .hbm, ⟨55, _⟩ => ⟨S112640, .i1⟩
  | .hbm, ⟨56, _⟩ => ⟨S_, .i32⟩
  | .hbm, ⟨57, _⟩ => ⟨S112640, .i32⟩
  | .hbm, ⟨58, _⟩ => ⟨S112640, .i32⟩
  | .hbm, ⟨59, _⟩ => ⟨S112640, .i32⟩
  | .hbm, ⟨60, _⟩ => ⟨S112640x1, .i32⟩
  | .hbm, ⟨61, _⟩ => ⟨S112640x256, .f32⟩
  | .hbm, ⟨62, _⟩ => ⟨S_, .f32⟩
  | .hbm, ⟨63, _⟩ => ⟨S11264x256, .f32⟩
  | .hbm, ⟨64, _⟩ => ⟨S112640x1, .i32⟩
  | .hbm, ⟨65, _⟩ => ⟨S11264x256, .f32⟩
  | .hbm, ⟨66, _⟩ => ⟨S_, .f32⟩
  | .hbm, ⟨67, _⟩ => ⟨S112640, .f32⟩
  | .hbm, ⟨68, _⟩ => ⟨S_, .f32⟩
  | .hbm, ⟨69, _⟩ => ⟨S11264, .f32⟩
  | .hbm, ⟨70, _⟩ => ⟨S112640x1, .i32⟩
  | .hbm, ⟨71, _⟩ => ⟨S11264, .f32⟩
  | .hbm, ⟨72, _⟩ => ⟨S_, .f32⟩
  | .hbm, ⟨73, _⟩ => ⟨S11264, .f32⟩
  | .hbm, ⟨74, _⟩ => ⟨S11264, .f32⟩
  | .hbm, ⟨75, _⟩ => ⟨S11264x1, .f32⟩
  | .hbm, ⟨76, _⟩ => ⟨S11264x256, .f32⟩
  | .hbm, ⟨77, _⟩ => ⟨S11264x256, .f32⟩
  | .hbm, ⟨78, _⟩ => ⟨S11264x256, .f32⟩
  | .hbm, ⟨79, _⟩ => ⟨S256x256, .f32⟩
  | .hbm, ⟨80, _⟩ => ⟨S256x256, .f32⟩
  | .hbm, ⟨81, _⟩ => ⟨S256x256, .bf16⟩
  | .hbm, ⟨82, _⟩ => ⟨S256x256, .bf16⟩
  | .hbm, ⟨83, _⟩ => ⟨S1x256, .f32⟩
  | .hbm, ⟨84, _⟩ => ⟨S11264x256, .f32⟩
  | .hbm, ⟨85, _⟩ => ⟨S1x10240, .i32⟩
  | .hbm, ⟨86, _⟩ => ⟨S10240, .i32⟩
  | .hbm, ⟨87, _⟩ => ⟨S1x10240, .i32⟩
  | .hbm, ⟨88, _⟩ => ⟨S10240, .i32⟩
  | .hbm, ⟨89, _⟩ => ⟨S_, .i32⟩
  | .hbm, ⟨90, _⟩ => ⟨S10240, .i32⟩
  | .hbm, ⟨91, _⟩ => ⟨S10240, .i1⟩
  | .hbm, ⟨92, _⟩ => ⟨S_, .i32⟩
  | .hbm, ⟨93, _⟩ => ⟨S10240, .i32⟩
  | .hbm, ⟨94, _⟩ => ⟨S10240, .i32⟩
  | .hbm, ⟨95, _⟩ => ⟨S10240, .i32⟩
  | .hbm, ⟨96, _⟩ => ⟨S10240x1, .i32⟩
  | .hbm, ⟨97, _⟩ => ⟨S10240x256, .f32⟩
  | .hbm, ⟨98, _⟩ => ⟨S_, .f32⟩
  | .hbm, ⟨99, _⟩ => ⟨S1024x256, .f32⟩
  | .hbm, ⟨100, _⟩ => ⟨S10240x1, .i32⟩
  | .hbm, ⟨101, _⟩ => ⟨S1024x256, .f32⟩
  | .hbm, ⟨102, _⟩ => ⟨S_, .f32⟩
  | .hbm, ⟨103, _⟩ => ⟨S10240, .f32⟩
  | .hbm, ⟨104, _⟩ => ⟨S_, .f32⟩
  | .hbm, ⟨105, _⟩ => ⟨S1024, .f32⟩
  | .hbm, ⟨106, _⟩ => ⟨S10240x1, .i32⟩
  | .hbm, ⟨107, _⟩ => ⟨S1024, .f32⟩
  | .hbm, ⟨108, _⟩ => ⟨S_, .f32⟩
  | .hbm, ⟨109, _⟩ => ⟨S1024, .f32⟩
  | .hbm, ⟨110, _⟩ => ⟨S1024, .f32⟩
  | .hbm, ⟨111, _⟩ => ⟨S1024x1, .f32⟩
  | .hbm, ⟨112, _⟩ => ⟨S1024x256, .f32⟩
  | .hbm, ⟨113, _⟩ => ⟨S1024x256, .f32⟩
  | .hbm, ⟨114, _⟩ => ⟨S1024x256, .f32⟩
  | .hbm, ⟨115, _⟩ => ⟨S256x47, .f32⟩
  | .hbm, ⟨116, _⟩ => ⟨S256x47, .f32⟩
  | .hbm, ⟨117, _⟩ => ⟨S256x47, .bf16⟩
  | .hbm, ⟨118, _⟩ => ⟨S256x47, .bf16⟩
  | .hbm, ⟨119, _⟩ => ⟨S1x47, .f32⟩
  | .hbm, ⟨120, _⟩ => ⟨S1024x47, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S128x256, .bf16⟩
  | .local _ .vmem, ⟨5, _⟩ => ⟨S128x256, .bf16⟩
  | .local _ .vmem, ⟨6, _⟩ => ⟨S1x256, .f32⟩
  | .local _ .vmem, ⟨7, _⟩ => ⟨S2048x256, .f32⟩
  | .local _ .vmem, ⟨8, _⟩ => ⟨S2048x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S256x256, .bf16⟩
  | .local _ .vmem, ⟨14, _⟩ => ⟨S256x256, .bf16⟩
  | .local _ .vmem, ⟨15, _⟩ => ⟨S1x256, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S256x47, .bf16⟩
  | .local _ .vmem, ⟨21, _⟩ => ⟨S256x47, .bf16⟩
  | .local _ .vmem, ⟨22, _⟩ => ⟨S1x47, .f32⟩
  | .local _ .vmem, ⟨23, _⟩ => ⟨S1024x47, .f32⟩
  | _, _ => ⟨S1126400x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_4 : Ref sig .tc := ⟨.hbm, 53, rfl⟩
abbrev main_v34 : Ref sig .tc := ⟨.hbm, 54, rfl⟩
abbrev main_v35 : Ref sig .tc := ⟨.hbm, 55, rfl⟩
abbrev main_c_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_10 : Ref sig .tc := ⟨.hbm, 89, rfl⟩
abbrev main_v64 : Ref sig .tc := ⟨.hbm, 90, rfl⟩
abbrev main_v65 : Ref sig .tc := ⟨.hbm, 91, rfl⟩
abbrev main_c_11 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_12 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_13 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_15 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23

abbrev nD : Nat := 1
abbrev τ : Topo := Topo.v7x

variable {F : FTy → Type} [FloatOps F]

abbrev grid0 : Pipeline.Grid := ⟨1, ![55], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![11], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1024x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1024x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S256x47 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x47 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x47 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x47 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

class Facts₀ : Prop where
  slices_S2x1126400_S1x1126400_0_0 : S2x1126400.Slices ![0, 0] S1x1126400
  shapeCasts_S1x1126400_S1126400 : S1x1126400.ShapeCasts S1126400
  slices_S2x1126400_S1x1126400_1_0 : S2x1126400.Slices ![1, 0] S1x1126400
  bcast_S_S1126400 : S_.BroadcastsInDim S1126400 (![] : Fin 0 → Fin S1126400.rank)
  bcast_S1126400_S1126400x1_0 : S1126400.BroadcastsInDim S1126400x1 (![0] : Fin 1 → Fin S1126400x1.rank)
  bcast_S_S112640x128 : S_.BroadcastsInDim S112640x128 (![] : Fin 0 → Fin S112640x128.rank)
  bcast_S_S112640 : S_.BroadcastsInDim S112640 (![] : Fin 0 → Fin S112640.rank)
  bcast_S112640_S112640x1_0 : S112640.BroadcastsInDim S112640x1 (![0] : Fin 1 → Fin S112640x1.rank)
  bcast_S112640x1_S112640x128_0_1 : S112640x1.BroadcastsInDim S112640x128 (![0, 1] : Fin 2 → Fin S112640x128.rank)
  slices_S1126400x128_S112640x128_0_0 : S1126400x128.Slices ![0, 0] S112640x128
  transposes_S256x128_S128x256_1_0 : S256x128.Transposes [1, 0] S128x256
  bitsLt_bf16_f32 : FTy.bits .bf16 < FTy.bits .f32
  shapeCasts_S256_S1x256 : S256.ShapeCasts S1x256
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  slices_S2x112640_S1x112640_0_0 : S2x112640.Slices ![0, 0] S1x112640
  shapeCasts_S1x112640_S112640 : S1x112640.ShapeCasts S112640
  slices_S2x112640_S1x112640_1_0 : S2x112640.Slices ![1, 0] S1x112640
  bcast_S_S11264x256 : S_.BroadcastsInDim S11264x256 (![] : Fin 0 → Fin S11264x256.rank)
  bcast_S_S11264 : S_.BroadcastsInDim S11264 (![] : Fin 0 → Fin S11264.rank)
  bcast_S11264_S11264x1_0 : S11264.BroadcastsInDim S11264x1 (![0] : Fin 1 → Fin S11264x1.rank)
  bcast_S11264x1_S11264x256_0_1 : S11264x1.BroadcastsInDim S11264x256 (![0, 1] : Fin 2 → Fin S11264x256.rank)
  slices_S112640x256_S11264x256_0_0 : S112640x256.Slices ![0, 0] S11264x256
  transposes_S256x256_S256x256_1_0 : S256x256.Transposes [1, 0] S256x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x256_S1024x256 : S1x256.Broadcasts S1024x256
  slices_S2x10240_S1x10240_0_0 : S2x10240.Slices ![0, 0] S1x10240
  shapeCasts_S1x10240_S10240 : S1x10240.ShapeCasts S10240
  slices_S2x10240_S1x10240_1_0 : S2x10240.Slices ![1, 0] S1x10240
  bcast_S_S10240 : S_.BroadcastsInDim S10240 (![] : Fin 0 → Fin S10240.rank)
  bcast_S10240_S10240x1_0 : S10240.BroadcastsInDim S10240x1 (![0] : Fin 1 → Fin S10240x1.rank)
  bcast_S_S1024x256 : S_.BroadcastsInDim S1024x256 (![] : Fin 0 → Fin S1024x256.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  slices_S11264x256_S1024x256_0_0 : S11264x256.Slices ![0, 0] S1024x256
  transposes_S47x256_S256x47_1_0 : S47x256.Transposes [1, 0] S256x47
  shapeCasts_S47_S1x47 : S47.ShapeCasts S1x47
  inb_S256x47_S256x47_0_0 : ∀ a, (![0, 0] : Fin 2 → Nat) a + S256x47.size a ≤ S256x47.size a
  h_S256x47 : 0 < S256x47.numel
  shapeCasts_S256x47_S256x47 : S256x47.ShapeCasts S256x47
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S1024x47 : S1x47.Broadcasts S1024x47
  reduces_S1024x47_S1024 : S1024x47.Reduces [1] S1024
  shapeCasts_S1024_S1024x1 : S1024.ShapeCasts S1024x1
  broadcasts_S1024x1_S1024x47 : S1024x1.Broadcasts S1024x47
  inb_S1024x47_S1024x47_0_0 : ∀ a, (![0, 0] : Fin 2 → Nat) a + S1024x47.size a ≤ S1024x47.size a
  h_S1024x47 : 0 < S1024x47.numel
  gather_S1126400x128_S1126400x1_S1126400x128_1_0_n_n_0_1_1128_wf : GatherDims.WF S1126400x128 S1126400x1 S1126400x128 [1] [0] [] [0] [] 1 ![1, 128]
  scatter_S112640x128_S1126400x1_S1126400x128_1_0_0_1_wf : ScatterDims.WF S112640x128 S1126400x1 S1126400x128 [1] [0] [0] 1
  scatter_S112640_S1126400x1_S1126400_n_0_0_1_wf : ScatterDims.WF S112640 S1126400x1 S1126400 [] [0] [0] 1
  dot_S2048x128_S128x256_S2048x256_1_0_0_1_n_n_wf : DotDims.WF S2048x128 S128x256 S2048x256 [1] [0] [0] [1] [] []
  gather_S112640x256_S112640x1_S112640x256_1_0_n_n_0_1_1256_wf : GatherDims.WF S112640x256 S112640x1 S112640x256 [1] [0] [] [0] [] 1 ![1, 256]
  scatter_S11264x256_S112640x1_S112640x256_1_0_0_1_wf : ScatterDims.WF S11264x256 S112640x1 S112640x256 [1] [0] [0] 1
  scatter_S11264_S112640x1_S112640_n_0_0_1_wf : ScatterDims.WF S11264 S112640x1 S112640 [] [0] [0] 1
  dot_S1024x256_S256x256_S1024x256_1_0_0_1_n_n_wf : DotDims.WF S1024x256 S256x256 S1024x256 [1] [0] [0] [1] [] []
  gather_S11264x256_S10240x1_S10240x256_1_0_n_n_0_1_1256_wf : GatherDims.WF S11264x256 S10240x1 S10240x256 [1] [0] [] [0] [] 1 ![1, 256]
  scatter_S1024x256_S10240x1_S10240x256_1_0_0_1_wf : ScatterDims.WF S1024x256 S10240x1 S10240x256 [1] [0] [0] 1
  scatter_S1024_S10240x1_S10240_n_0_0_1_wf : ScatterDims.WF S1024 S10240x1 S10240 [] [0] [0] 1
  dot_S1024x256_S256x47_S1024x47_1_0_0_1_n_n_wf : DotDims.WF S1024x256 S256x47 S1024x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S112640x128.size a
  hwx0_0 : ∀ i : grid0.Coords, EltTy.bits .f32 = 32 ∨ (Rect.block (s := S112640x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S112640x128.size a
  hwx0_1 : ∀ i : grid0.Coords, EltTy.bits .f32 = 32 ∨ (Rect.block (s := S112640x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S112640x256.size a
  hwx0_5 : ∀ i : grid0.Coords, EltTy.bits .f32 = 32 ∨ (Rect.block (s := S112640x256) S2048x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S11264x256.size a
  hwx1_0 : ∀ i : grid1.Coords, EltTy.bits .f32 = 32 ∨ (Rect.block (s := S11264x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S11264x256.size a
  hwx1_1 : ∀ i : grid1.Coords, EltTy.bits .f32 = 32 ∨ (Rect.block (s := S11264x256) S1024x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x256.size a ≤ S11264x256.size a
  hwx1_5 : ∀ i : grid1.Coords, EltTy.bits .f32 = 32 ∨ (Rect.block (s := S11264x256) S1024x256.size (cc1_transform_5 i) (hinb1_5 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S1024x256.size a
  hwx2_0 : ∀ i : grid2.Coords, EltTy.bits .f32 = 32 ∨ (Rect.block (s := S1024x256) S1024x256.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S1024x256.size a
  hwx2_1 : ∀ i : grid2.Coords, EltTy.bits .f32 = 32 ∨ (Rect.block (s := S1024x256) S1024x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x47.size a ≤ S256x47.size a
  hwx2_2 : ∀ i : grid2.Coords, EltTy.bits .bf16 = 32 ∨ (Rect.block (s := S256x47) S256x47.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x47.size a ≤ S256x47.size a
  hwx2_3 : ∀ i : grid2.Coords, EltTy.bits .bf16 = 32 ∨ (Rect.block (s := S256x47) S256x47.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x47.size a ≤ S1x47.size a
  hwx2_4 : ∀ i : grid2.Coords, EltTy.bits .f32 = 32 ∨ (Rect.block (s := S1x47) S1x47.size (cc2_transform_4 i) (hinb2_4 i)).WholeWords (EltTy.packing .f32)
  hstage2_5 : ∀ j, (stage2_5 j).IsWhole
  nbuf2_5 : grid2.bufCount reads2_5 false = 1
  hreads2_5 : ∀ i i' : grid2.Coords, (∀ a, reads2_5 a = true → i a = i' a) → cc2_transform_5 i = cc2_transform_5 i'
  hinb2_5 : ∀ (i : grid2.Coords) a, (cc2_transform_5 i a + 1) * S1024x47.size a ≤ S1024x47.size a
  hwx2_5 : ∀ i : grid2.Coords, EltTy.bits .f32 = 32 ∨ (Rect.block (s := S1024x47) S1024x47.size (cc2_transform_5 i) (hinb2_5 i)).WholeWords (EltTy.packing .f32)

variable [Facts₀]

def gather_S1126400x128_S1126400x1_S1126400x128_1_0_n_n_0_1_1128 : GatherDims S1126400x128 S1126400x1 S1126400x128 where
  offsetDims := [1]
  collapsedSliceDims := [0]
  operandBatchingDims := []
  startIndicesBatchingDims := []
  startIndexMap := [0]
  indexVectorDim := 1
  sliceSizes := ![1, 128]
  wf := gather_S1126400x128_S1126400x1_S1126400x128_1_0_n_n_0_1_1128_wf
def scatter_S112640x128_S1126400x1_S1126400x128_1_0_0_1 : ScatterDims S112640x128 S1126400x1 S1126400x128 where
  updateWindowDims := [1]
  insertedWindowDims := [0]
  scatterDimsToOperandDims := [0]
  indexVectorDim := 1
  wf := scatter_S112640x128_S1126400x1_S1126400x128_1_0_0_1_wf
def scatter_S112640_S1126400x1_S1126400_n_0_0_1 : ScatterDims S112640 S1126400x1 S1126400 where
  updateWindowDims := []
  insertedWindowDims := [0]
  scatterDimsToOperandDims := [0]
  indexVectorDim := 1
  wf := scatter_S112640_S1126400x1_S1126400_n_0_0_1_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def gather_S112640x256_S112640x1_S112640x256_1_0_n_n_0_1_1256 : GatherDims S112640x256 S112640x1 S112640x256 where
  offsetDims := [1]
  collapsedSliceDims := [0]
  operandBatchingDims := []
  startIndicesBatchingDims := []
  startIndexMap := [0]
  indexVectorDim := 1
  sliceSizes := ![1, 256]
  wf := gather_S112640x256_S112640x1_S112640x256_1_0_n_n_0_1_1256_wf
def scatter_S11264x256_S112640x1_S112640x256_1_0_0_1 : ScatterDims S11264x256 S112640x1 S112640x256 where
  updateWindowDims := [1]
  insertedWindowDims := [0]
  scatterDimsToOperandDims := [0]
  indexVectorDim := 1
  wf := scatter_S11264x256_S112640x1_S112640x256_1_0_0_1_wf
def scatter_S11264_S112640x1_S112640_n_0_0_1 : ScatterDims S11264 S112640x1 S112640 where
  updateWindowDims := []
  insertedWindowDims := [0]
  scatterDimsToOperandDims := [0]
  indexVectorDim := 1
  wf := scatter_S11264_S112640x1_S112640_n_0_0_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def gather_S11264x256_S10240x1_S10240x256_1_0_n_n_0_1_1256 : GatherDims S11264x256 S10240x1 S10240x256 where
  offsetDims := [1]
  collapsedSliceDims := [0]
  operandBatchingDims := []
  startIndicesBatchingDims := []
  startIndexMap := [0]
  indexVectorDim := 1
  sliceSizes := ![1, 256]
  wf := gather_S11264x256_S10240x1_S10240x256_1_0_n_n_0_1_1256_wf
def scatter_S1024x256_S10240x1_S10240x256_1_0_0_1 : ScatterDims S1024x256 S10240x1 S10240x256 where
  updateWindowDims := [1]
  insertedWindowDims := [0]
  scatterDimsToOperandDims := [0]
  indexVectorDim := 1
  wf := scatter_S1024x256_S10240x1_S10240x256_1_0_0_1_wf
def scatter_S1024_S10240x1_S10240_n_0_0_1 : ScatterDims S1024 S10240x1 S10240 where
  updateWindowDims := []
  insertedWindowDims := [0]
  scatterDimsToOperandDims := [0]
  indexVectorDim := 1
  wf := scatter_S1024_S10240x1_S10240_n_0_0_1_wf
def dot_S1024x256_S256x47_S1024x47_1_0_0_1_n_n : DotDims S1024x256 S256x47 S1024x47 where
  lhsContracting := [1]
  rhsContracting := [0]
  lhsNonContracting := [0]
  rhsNonContracting := [1]
  lhsBatch := []
  rhsBatch := []
  wf := dot_S1024x256_S256x47_S1024x47_1_0_0_1_n_n_wf

abbrev win0_0 : Pipeline.Window sig grid0 :=
  Pipeline.Window.ofSpec (Memref.whole main_v22) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v52) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v56) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S1024x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v82) S1024x256.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v83) S1024x256.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v86) S256x47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v87) S256x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v88) S1x47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v89) S1024x47.size cc2_transform_5 reads2_5 true false 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S1126400x128 : Shape := ⟨2, ![1126400, 128]⟩
abbrev S2x1126400 : Shape := ⟨2, ![2, 1126400]⟩
abbrev S2x112640 : Shape := ⟨2, ![2, 112640]⟩
abbrev S2x10240 : Shape := ⟨2, ![2, 10240]⟩
abbrev S256x128 : Shape := ⟨2, ![256, 128]⟩
abbrev S256 : Shape := ⟨1, ![256]⟩
abbrev S256x256 : Shape := ⟨2, ![256, 256]⟩
abbrev S47x256 : Shape := ⟨2, ![47, 256]⟩
abbrev S47 : Shape := ⟨1, ![47]⟩
abbrev S112640x128 : Shape := ⟨2, ![112640, 128]⟩
abbrev S1x1126400 : Shape := ⟨2, ![1, 1126400]⟩
abbrev S1126400 : Shape := ⟨1, ![1126400]⟩
abbrev S_ : Shape := ⟨0, ![]⟩
abbrev S1126400x1 : Shape := ⟨2, ![1126400, 1]⟩
abbrev S112640 : Shape := ⟨1, ![112640]⟩
abbrev S112640x1 : Shape := ⟨2, ![112640, 1]⟩
abbrev S128x256 : Shape := ⟨2, ![128, 256]⟩
abbrev S112640x256 : Shape := ⟨2, ![112640, 256]⟩
abbrev S1x256 : Shape := ⟨2, ![1, 256]⟩
abbrev S11264x256 : Shape := ⟨2, ![11264, 256]⟩
abbrev S1x112640 : Shape := ⟨2, ![1, 112640]⟩
abbrev S11264 : Shape := ⟨1, ![11264]⟩
abbrev S11264x1 : Shape := ⟨2, ![11264, 1]⟩
abbrev S1024x256 : Shape := ⟨2, ![1024, 256]⟩
abbrev S1x10240 : Shape := ⟨2, ![1, 10240]⟩
abbrev S10240 : Shape := ⟨1, ![10240]⟩
abbrev S10240x1 : Shape := ⟨2, ![10240, 1]⟩
abbrev S10240x256 : Shape := ⟨2, ![10240, 256]⟩
abbrev S1024 : Shape := ⟨1, ![1024]⟩
abbrev S1024x1 : Shape := ⟨2, ![1024, 1]⟩
abbrev S256x47 : Shape := ⟨2, ![256, 47]⟩
abbrev S1024x47 : Shape := ⟨2, ![1024, 47]⟩
abbrev S1x47 : Shape := ⟨2, ![1, 47]⟩

abbrev nBuf : Space → Nat
  | .hbm => 148
  | .vmem => 0
  | .smem => 0
  | _ => 0

abbrev hbmTy0_0 (i : Nat) : BufTy := match i % 128 with
  | 0 => ⟨S1126400x128, .f32⟩
  | 1 => ⟨S2x1126400, .i32⟩
  | 2 => ⟨S2x112640, .i32⟩
  | 3 => ⟨S2x10240, .i32⟩
  | 4 => ⟨S256x128, .f32⟩
  | 5 => ⟨S256, .f32⟩
  | 6 => ⟨S256x128, .f32⟩
  | 7 => ⟨S256x256, .f32⟩
  | 8 => ⟨S256, .f32⟩
  | 9 => ⟨S256x256, .f32⟩
  | 10 => ⟨S47x256, .f32⟩
  | 11 => ⟨S47, .f32⟩
  | 12 => ⟨S47x256, .f32⟩
  | 13 => ⟨S112640x128, .f32⟩
  | 14 => ⟨S1x1126400, .i32⟩
  | 15 => ⟨S1126400, .i32⟩
  | 16 => ⟨S1x1126400, .i32⟩
  | 17 => ⟨S1126400, .i32⟩
  | 18 => ⟨S_, .i32⟩
  | 19 => ⟨S1126400, .i32⟩
  | 20 => ⟨S1126400, .i1⟩
  | 21 => ⟨S_, .i32⟩
  | 22 => ⟨S1126400, .i32⟩
  | 23 => ⟨S1126400, .i32⟩
  | 24 => ⟨S1126400, .i32⟩
  | 25 => ⟨S1126400x1, .i32⟩
  | 26 => ⟨S1126400x128, .f32⟩
  | 27 => ⟨S_, .f32⟩
  | 28 => ⟨S112640x128, .f32⟩
  | 29 => ⟨S1126400x1, .i32⟩
  | 30 => ⟨S112640x128, .f32⟩
  | 31 => ⟨S_, .f32⟩
  | 32 => ⟨S1126400, .f32⟩
  | 33 => ⟨S_, .f32⟩
  | 34 => ⟨S112640, .f32⟩
  | 35 => ⟨S1126400x1, .i32⟩
  | 36 => ⟨S112640, .f32⟩
  | 37 => ⟨S_, .f32⟩
  | 38 => ⟨S112640, .f32⟩
  | 39 => ⟨S112640, .f32⟩
  | 40 => ⟨S112640x1, .f32⟩
  | 41 => ⟨S112640x128, .f32⟩
  | 42 => ⟨S112640x128, .f32⟩
  | 43 => ⟨S128x256, .f32⟩
  | 44 => ⟨S112640x256, .f32⟩
  | 45 => ⟨S1x256, .f32⟩
  | 46 => ⟨S112640x256, .f32⟩
  | 47 => ⟨S112640x256, .f32⟩
  | 48 => ⟨S128x256, .f32⟩
  | 49 => ⟨S112640x256, .f32⟩
  | 50 => ⟨S112640x256, .f32⟩
  | 51 => ⟨S_, .f32⟩
  | 52 => ⟨S112640x256, .f32⟩
  | 53 => ⟨S112640x256, .f32⟩
  | 54 => ⟨S11264x256, .f32⟩
  | 55 => ⟨S1x112640, .i32⟩
  | 56 => ⟨S112640, .i32⟩
  | 57 => ⟨S1x112640, .i32⟩
  | 58 => ⟨S112640, .i32⟩
  | 59 => ⟨S_, .i32⟩
  | 60 => ⟨S112640, .i32⟩
  | 61 => ⟨S112640, .i1⟩
  | 62 => ⟨S_, .i32⟩
  | 63 => ⟨S112640, .i32⟩
  | 64 => ⟨S112640, .i32⟩
  | 65 => ⟨S112640, .i32⟩
  | 66 => ⟨S112640x1, .i32⟩
  | 67 => ⟨S112640x256, .f32⟩
  | 68 => ⟨S_, .f32⟩
  | 69 => ⟨S11264x256, .f32⟩
  | 70 => ⟨S112640x1, .i32⟩
  | 71 => ⟨S11264x256, .f32⟩
  | 72 => ⟨S_, .f32⟩
  | 73 => ⟨S112640, .f32⟩
  | 74 => ⟨S_, .f32⟩
  | 75 => ⟨S11264, .f32⟩
  | 76 => ⟨S112640x1, .i32⟩
  | 77 => ⟨S11264, .f32⟩
  | 78 => ⟨S_, .f32⟩
  | 79 => ⟨S11264, .f32⟩
  | 80 => ⟨S11264, .f32⟩
  | 81 => ⟨S11264x1, .f32⟩
  | 82 => ⟨S11264x256, .f32⟩
  | 83 => ⟨S11264x256, .f32⟩
  | 84 => ⟨S256x256, .f32⟩
  | 85 => ⟨S11264x256, .f32⟩
  | 86 => ⟨S1x256, .f32⟩
  | 87 => ⟨S11264x256, .f32⟩
  | 88 => ⟨S11264x256, .f32⟩
  | 89 => ⟨S256x256, .f32⟩
  | 90 => ⟨S11264x256, .f32⟩
  | 91 => ⟨S11264x256, .f32⟩
  | 92 => ⟨S_, .f32⟩
  | 93 => ⟨S11264x256, .f32⟩
  | 94 => ⟨S11264x256, .f32⟩
  | 95 => ⟨S1024x256, .f32⟩
  | 96 => ⟨S1x10240, .i32⟩
  | 97 => ⟨S10240, .i32⟩
  | 98 => ⟨S1x10240, .i32⟩
  | 99 => ⟨S10240, .i32⟩
  | 100 => ⟨S_, .i32⟩
  | 101 => ⟨S10240, .i32⟩
  | 102 => ⟨S10240, .i1⟩
  | 103 => ⟨S_, .i32⟩
  | 104 => ⟨S10240, .i32⟩
  | 105 => ⟨S10240, .i32⟩
  | 106 => ⟨S10240, .i32⟩
  | 107 => ⟨S10240x1, .i32⟩
  | 108 => ⟨S10240x256, .f32⟩
  | 109 => ⟨S_, .f32⟩
  | 110 => ⟨S1024x256, .f32⟩
  | 111 => ⟨S10240x1, .i32⟩
  | 112 => ⟨S1024x256, .f32⟩
  | 113 => ⟨S_, .f32⟩
  | 114 => ⟨S10240, .f32⟩
  | 115 => ⟨S_, .f32⟩
  | 116 => ⟨S1024, .f32⟩
  | 117 => ⟨S10240x1, .i32⟩
  | 118 => ⟨S1024, .f32⟩
  | 119 => ⟨S_, .f32⟩
  | 120 => ⟨S1024, .f32⟩
  | 121 => ⟨S1024, .f32⟩
  | 122 => ⟨S1024x1, .f32⟩
  | 123 => ⟨S1024x256, .f32⟩
  | 124 => ⟨S1024x256, .f32⟩
  | 125 => ⟨S256x47, .f32⟩
  | 126 => ⟨S1024x47, .f32⟩
  | 127 => ⟨S1x47, .f32⟩
  | _ => ⟨S1126400x128, .f32⟩

abbrev hbmTy0_1 (i : Nat) : BufTy := match i % 128 with
  | 0 => ⟨S1024x47, .f32⟩
  | 1 => ⟨S1024x47, .f32⟩
  | 2 => ⟨S256x47, .f32⟩
  | 3 => ⟨S1024x47, .f32⟩
  | 4 => ⟨S1024x47, .f32⟩
  | 5 => ⟨S_, .f32⟩
  | 6 => ⟨S1024, .f32⟩
  | 7 => ⟨S_, .f32⟩
  | 8 => ⟨S1024, .f32⟩
  | 9 => ⟨S1024, .f32⟩
  | 10 => ⟨S1024x1, .f32⟩
  | 11 => ⟨S1024x47, .f32⟩
  | 12 => ⟨S1024x47, .f32⟩
  | 13 => ⟨S1024x47, .f32⟩
  | 14 => ⟨S_, .f32⟩
  | 15 => ⟨S1024, .f32⟩
  | 16 => ⟨S1024x1, .f32⟩
  | 17 => ⟨S1024x1, .f32⟩
  | 18 => ⟨S1024x47, .f32⟩
  | 19 => ⟨S1024x47, .f32⟩
  | _ => ⟨S1126400x128, .f32⟩

abbrev hbmTy (i : Nat) : BufTy := match i / 128 with
  | 0 => hbmTy0_0 i
  | 1 => hbmTy0_1 i
  | _ => ⟨S1126400x128, .f32⟩

abbrev bufTy : (tb : Table) → Fin (tcTables nBuf tb) → BufTy
  | .hbm, ⟨i, _⟩ => hbmTy i
  | _, _ => ⟨S1126400x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call0_cst : Ref sig .tc := ⟨.hbm, 51, rfl⟩
abbrev main_call0_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_4 : Ref sig .tc := ⟨.hbm, 59, rfl⟩
abbrev main_v38 : Ref sig .tc := ⟨.hbm, 60, rfl⟩
abbrev main_v39 : Ref sig .tc := ⟨.hbm, 61, rfl⟩
abbrev main_c_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call1_cst : Ref sig .tc := ⟨.hbm, 92, rfl⟩
abbrev main_call1_v0 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_10 : Ref sig .tc := ⟨.hbm, 100, rfl⟩
abbrev main_v71 : Ref sig .tc := ⟨.hbm, 101, rfl⟩
abbrev main_v72 : Ref sig .tc := ⟨.hbm, 102, rfl⟩
abbrev main_c_11 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_12 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_13 : Ref sig .tc := ⟨.hbm, 113, rfl⟩
abbrev main_v81 : Ref sig .tc := ⟨.hbm, 114, rfl⟩
abbrev main_cst_14 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_15 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_call2_cst : Ref sig .tc := ⟨.hbm, 133, rfl⟩
abbrev main_call2_v0 : Ref sig .tc := ⟨.hbm, 134, rfl⟩
abbrev main_call2_cst_0 : Ref sig .tc := ⟨.hbm, 135, rfl⟩
abbrev main_call2_v1 : Ref sig .tc := ⟨.hbm, 136, rfl⟩
abbrev main_call2_v2 : Ref sig .tc := ⟨.hbm, 137, rfl⟩
abbrev main_call2_v3 : Ref sig .tc := ⟨.hbm, 138, rfl⟩
abbrev main_call2_v4 : Ref sig .tc := ⟨.hbm, 139, rfl⟩
abbrev main_call2_v5 : Ref sig .tc := ⟨.hbm, 140, rfl⟩
abbrev main_call2_v6 : Ref sig .tc := ⟨.hbm, 141, rfl⟩
abbrev main_call2_cst_1 : Ref sig .tc := ⟨.hbm, 142, rfl⟩
abbrev main_call2_v7 : Ref sig .tc := ⟨.hbm, 143, rfl⟩
abbrev main_call2_v8 : Ref sig .tc := ⟨.hbm, 144, rfl⟩
abbrev main_call2_v9 : Ref sig .tc := ⟨.hbm, 145, rfl⟩
abbrev main_call2_v10 : Ref sig .tc := ⟨.hbm, 146, rfl⟩
abbrev main_v98 : Ref sig .tc := ⟨.hbm, 147, rfl⟩

abbrev nD : Nat := 1
abbrev τ : Topo := Topo.v7x

variable {F : FTy → Type} [FloatOps F]

class Facts₀ : Prop where
  slices_S1126400x128_S112640x128_0_0 : S1126400x128.Slices ![0, 0] S112640x128
  slices_S2x1126400_S1x1126400_0_0 : S2x1126400.Slices ![0, 0] S1x1126400
  shapeCasts_S1x1126400_S1126400 : S1x1126400.ShapeCasts S1126400
  slices_S2x1126400_S1x1126400_1_0 : S2x1126400.Slices ![1, 0] S1x1126400
  bcast_S_S1126400 : S_.BroadcastsInDim S1126400 (![] : Fin 0 → Fin S1126400.rank)
  bcast_S1126400_S1126400x1_0 : S1126400.BroadcastsInDim S1126400x1 (![0] : Fin 1 → Fin S1126400x1.rank)
  bcast_S_S112640x128 : S_.BroadcastsInDim S112640x128 (![] : Fin 0 → Fin S112640x128.rank)
  bcast_S_S112640 : S_.BroadcastsInDim S112640 (![] : Fin 0 → Fin S112640.rank)
  bcast_S112640_S112640x1_0 : S112640.BroadcastsInDim S112640x1 (![0] : Fin 1 → Fin S112640x1.rank)
  bcast_S112640x1_S112640x128_0_1 : S112640x1.BroadcastsInDim S112640x128 (![0, 1] : Fin 2 → Fin S112640x128.rank)
  transposes_S256x128_S128x256_1_0 : S256x128.Transposes [1, 0] S128x256
  bcast_S256_S1x256_1 : S256.BroadcastsInDim S1x256 (![1] : Fin 1 → Fin S1x256.rank)
  bcast_S1x256_S112640x256_0_1 : S1x256.BroadcastsInDim S112640x256 (![0, 1] : Fin 2 → Fin S112640x256.rank)
  bcast_S_S112640x256 : S_.BroadcastsInDim S112640x256 (![] : Fin 0 → Fin S112640x256.rank)
  slices_S112640x256_S11264x256_0_0 : S112640x256.Slices ![0, 0] S11264x256
  slices_S2x112640_S1x112640_0_0 : S2x112640.Slices ![0, 0] S1x112640
  shapeCasts_S1x112640_S112640 : S1x112640.ShapeCasts S112640
  slices_S2x112640_S1x112640_1_0 : S2x112640.Slices ![1, 0] S1x112640
  bcast_S_S11264x256 : S_.BroadcastsInDim S11264x256 (![] : Fin 0 → Fin S11264x256.rank)
  bcast_S_S11264 : S_.BroadcastsInDim S11264 (![] : Fin 0 → Fin S11264.rank)
  bcast_S11264_S11264x1_0 : S11264.BroadcastsInDim S11264x1 (![0] : Fin 1 → Fin S11264x1.rank)
  bcast_S11264x1_S11264x256_0_1 : S11264x1.BroadcastsInDim S11264x256 (![0, 1] : Fin 2 → Fin S11264x256.rank)
  transposes_S256x256_S256x256_1_0 : S256x256.Transposes [1, 0] S256x256
  bcast_S1x256_S11264x256_0_1 : S1x256.BroadcastsInDim S11264x256 (![0, 1] : Fin 2 → Fin S11264x256.rank)
  slices_S11264x256_S1024x256_0_0 : S11264x256.Slices ![0, 0] S1024x256
  slices_S2x10240_S1x10240_0_0 : S2x10240.Slices ![0, 0] S1x10240
  shapeCasts_S1x10240_S10240 : S1x10240.ShapeCasts S10240
  slices_S2x10240_S1x10240_1_0 : S2x10240.Slices ![1, 0] S1x10240
  bcast_S_S10240 : S_.BroadcastsInDim S10240 (![] : Fin 0 → Fin S10240.rank)
  bcast_S10240_S10240x1_0 : S10240.BroadcastsInDim S10240x1 (![0] : Fin 1 → Fin S10240x1.rank)
  bcast_S_S1024x256 : S_.BroadcastsInDim S1024x256 (![] : Fin 0 → Fin S1024x256.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  transposes_S47x256_S256x47_1_0 : S47x256.Transposes [1, 0] S256x47
  bcast_S47_S1x47_1 : S47.BroadcastsInDim S1x47 (![1] : Fin 1 → Fin S1x47.rank)
  bcast_S1x47_S1024x47_0_1 : S1x47.BroadcastsInDim S1024x47 (![0, 1] : Fin 2 → Fin S1024x47.rank)
  reducesTo_S1024x47_S1024_d1 : S1024x47.ReducesTo [1] S1024
  h_S_ : 0 < S_.numel
  bcast_S1024x1_S1024x47_0_1 : S1024x1.BroadcastsInDim S1024x47 (![0, 1] : Fin 2 → Fin S1024x47.rank)
  gather_S1126400x128_S1126400x1_S1126400x128_1_0_n_n_0_1_1128_wf : GatherDims.WF S1126400x128 S1126400x1 S1126400x128 [1] [0] [] [0] [] 1 ![1, 128]
  scatter_S112640x128_S1126400x1_S1126400x128_1_0_0_1_wf : ScatterDims.WF S112640x128 S1126400x1 S1126400x128 [1] [0] [0] 1
  scatter_S112640_S1126400x1_S1126400_n_0_0_1_wf : ScatterDims.WF S112640 S1126400x1 S1126400 [] [0] [0] 1
  dot_S112640x128_S128x256_S112640x256_1_0_0_1_n_n_wf : DotDims.WF S112640x128 S128x256 S112640x256 [1] [0] [0] [1] [] []
  gather_S112640x256_S112640x1_S112640x256_1_0_n_n_0_1_1256_wf : GatherDims.WF S112640x256 S112640x1 S112640x256 [1] [0] [] [0] [] 1 ![1, 256]
  scatter_S11264x256_S112640x1_S112640x256_1_0_0_1_wf : ScatterDims.WF S11264x256 S112640x1 S112640x256 [1] [0] [0] 1
  scatter_S11264_S112640x1_S112640_n_0_0_1_wf : ScatterDims.WF S11264 S112640x1 S112640 [] [0] [0] 1
  dot_S11264x256_S256x256_S11264x256_1_0_0_1_n_n_wf : DotDims.WF S11264x256 S256x256 S11264x256 [1] [0] [0] [1] [] []
  gather_S11264x256_S10240x1_S10240x256_1_0_n_n_0_1_1256_wf : GatherDims.WF S11264x256 S10240x1 S10240x256 [1] [0] [] [0] [] 1 ![1, 256]
  scatter_S1024x256_S10240x1_S10240x256_1_0_0_1_wf : ScatterDims.WF S1024x256 S10240x1 S10240x256 [1] [0] [0] 1
  scatter_S1024_S10240x1_S10240_n_0_0_1_wf : ScatterDims.WF S1024 S10240x1 S10240 [] [0] [0] 1
  dot_S1024x256_S256x47_S1024x47_1_0_0_1_n_n_wf : DotDims.WF S1024x256 S256x47 S1024x47 [1] [0] [0] [1] [] []

variable [Facts₀]

def gather_S1126400x128_S1126400x1_S1126400x128_1_0_n_n_0_1_1128 : GatherDims S1126400x128 S1126400x1 S1126400x128 where
  offsetDims := [1]
  collapsedSliceDims := [0]
  operandBatchingDims := []
  startIndicesBatchingDims := []
  startIndexMap := [0]
  indexVectorDim := 1
  sliceSizes := ![1, 128]
  wf := gather_S1126400x128_S1126400x1_S1126400x128_1_0_n_n_0_1_1128_wf
def scatter_S112640x128_S1126400x1_S1126400x128_1_0_0_1 : ScatterDims S112640x128 S1126400x1 S1126400x128 where
  updateWindowDims := [1]
  insertedWindowDims := [0]
  scatterDimsToOperandDims := [0]
  indexVectorDim := 1
  wf := scatter_S112640x128_S1126400x1_S1126400x128_1_0_0_1_wf
def scatter_S112640_S1126400x1_S1126400_n_0_0_1 : ScatterDims S112640 S1126400x1 S1126400 where
  updateWindowDims := []
  insertedWindowDims := [0]
  scatterDimsToOperandDims := [0]
  indexVectorDim := 1
  wf := scatter_S112640_S1126400x1_S1126400_n_0_0_1_wf
def dot_S112640x128_S128x256_S112640x256_1_0_0_1_n_n : DotDims S112640x128 S128x256 S112640x256 where
  lhsContracting := [1]
  rhsContracting := [0]
  lhsNonContracting := [0]
  rhsNonContracting := [1]
  lhsBatch := []
  rhsBatch := []
  wf := dot_S112640x128_S128x256_S112640x256_1_0_0_1_n_n_wf
def gather_S112640x256_S112640x1_S112640x256_1_0_n_n_0_1_1256 : GatherDims S112640x256 S112640x1 S112640x256 where
  offsetDims := [1]
  collapsedSliceDims := [0]
  operandBatchingDims := []
  startIndicesBatchingDims := []
  startIndexMap := [0]
  indexVectorDim := 1
  sliceSizes := ![1, 256]
  wf := gather_S112640x256_S112640x1_S112640x256_1_0_n_n_0_1_1256_wf
def scatter_S11264x256_S112640x1_S112640x256_1_0_0_1 : ScatterDims S11264x256 S112640x1 S112640x256 where
  updateWindowDims := [1]
  insertedWindowDims := [0]
  scatterDimsToOperandDims := [0]
  indexVectorDim := 1
  wf := scatter_S11264x256_S112640x1_S112640x256_1_0_0_1_wf
def scatter_S11264_S112640x1_S112640_n_0_0_1 : ScatterDims S11264 S112640x1 S112640 where
  updateWindowDims := []
  insertedWindowDims := [0]
  scatterDimsToOperandDims := [0]
  indexVectorDim := 1
  wf := scatter_S11264_S112640x1_S112640_n_0_0_1_wf
def dot_S11264x256_S256x256_S11264x256_1_0_0_1_n_n : DotDims S11264x256 S256x256 S11264x256 where
  lhsContracting := [1]
  rhsContracting := [0]
  lhsNonContracting := [0]
  rhsNonContracting := [1]
  lhsBatch := []
  rhsBatch := []
  wf := dot_S11264x256_S256x256_S11264x256_1_0_0_1_n_n_wf
def gather_S11264x256_S10240x1_S10240x256_1_0_n_n_0_1_1256 : GatherDims S11264x256 S10240x1 S10240x256 where
  offsetDims := [1]
  collapsedSliceDims := [0]
  operandBatchingDims := []
  startIndicesBatchingDims := []
  startIndexMap := [0]
  indexVectorDim := 1
  sliceSizes := ![1, 256]
  wf := gather_S11264x256_S10240x1_S10240x256_1_0_n_n_0_1_1256_wf
def scatter_S1024x256_S10240x1_S10240x256_1_0_0_1 : ScatterDims S1024x256 S10240x1 S10240x256 where
  updateWindowDims := [1]
  insertedWindowDims := [0]
  scatterDimsToOperandDims := [0]
  indexVectorDim := 1
  wf := scatter_S1024x256_S10240x1_S10240x256_1_0_0_1_wf
def scatter_S1024_S10240x1_S10240_n_0_0_1 : ScatterDims S1024 S10240x1 S10240 where
  updateWindowDims := []
  insertedWindowDims := [0]
  scatterDimsToOperandDims := [0]
  indexVectorDim := 1
  wf := scatter_S1024_S10240x1_S10240_n_0_0_1_wf
def dot_S1024x256_S256x47_S1024x47_1_0_0_1_n_n : DotDims S1024x256 S256x47 S1024x47 where
  lhsContracting := [1]
  rhsContracting := [0]
  lhsNonContracting := [0]
  rhsNonContracting := [1]
  lhsBatch := []
  rhsBatch := []
  wf := dot_S1024x256_S256x47_S1024x47_1_0_0_1_n_n_wf

class Facts : Prop extends Facts₀ where

variable [Facts]
-- ==== Proof.SageSpec.lean ====
/-
  The mathematics of one mean-aggregation graph layer, as functions on extended reals, index by index.

  A layer takes the aggregated neighbour features `A` and the target nodes' own features `X` (both n × cin), two weight
  matrices already laid out cin × cout, and a bias row 1 × cout. Its pre-activation at node r and channel j is

      lin r j = (∑ k, A r k · Wl k j) + (∑ k, X r k · Wr k j) + b j.

  The hidden layers clamp it below at the value of a given word (the pattern of 0.0): `relu`. The last layer takes the
  log-softmax along the channels: with M r the maximum of `lin r ·` starting from the value of a word (the pattern of -∞) and
  z r j = lin r j - M r, the result is z r j - log (s0 + ∑ j', exp (z r j')), `s0` the value of the sum's starting word.
  Sums over a `Fin` are unordered, so nothing here depends on how a program tiles or orders them.
-/
import Idealize.ShloMosaic.PureOps.Ideal
import Idealize.ShloMosaic.Lib.ValueIdx

noncomputable section

open Idealize.ShloMosaic Idealize.ShloMosaic.ValueIdx

namespace Cert.Sage

/-- Extended-real arrays of two axes. -/
abbrev Arr (a b : Nat) : Type := (⟨2, ![a, b]⟩ : Shape).Idx → EReal

/-- Row and column of an index, as literal-size coordinates. -/
abbrev row {a b : Nat} (i : (⟨2, ![a, b]⟩ : Shape).Idx) : Fin a := ⟨(i 0).val, (i 0).isLt⟩
abbrev col {a b : Nat} (i : (⟨2, ![a, b]⟩ : Shape).Idx) : Fin b := ⟨(i 1).val, (i 1).isLt⟩

/-- The pre-activation at node r, channel j. -/
def linAt {n ci co : Nat} (A X : Arr n ci) (Wl Wr : Arr ci co) (b : Arr 1 co) (r : Fin n) (j : Fin co) : EReal :=
  (∑ k : Fin ci, A (ix2 r k) * Wl (ix2 k j)) + (∑ k : Fin ci, X (ix2 r k) * Wr (ix2 k j)) + b (ix2 (0 : Fin 1) j)

/-- A hidden layer: the pre-activation clamped below at `z`. -/
def relu {n ci co : Nat} (z : EReal) (A X : Arr n ci) (Wl Wr : Arr ci co) (b : Arr 1 co) : Arr n co :=
  fun i => max (linAt A X Wl Wr b (row i) (col i)) z

/-- The row maximum of the pre-activation, folded from `lo`. -/
def rowMax {n ci co : Nat} (lo : EReal) (A X : Arr n ci) (Wl Wr : Arr ci co) (b : Arr 1 co) (r : Fin n) : EReal :=
  (Finset.univ : Finset (Fin co)).fold max lo (fun j => linAt A X Wl Wr b r j)

/-- The last layer: log-softmax of the pre-activation along the channels. -/
def logSoftmax {n ci co : Nat} (lo s0 : EReal) (A X : Arr n ci) (Wl Wr : Arr ci co) (b : Arr 1 co) : Arr n co :=
  fun i =>
    (linAt A X Wl Wr b (row i) (col i) - rowMax lo A X Wl Wr b (row i))
      - Ideal.log (s0 + ∑ j : Fin co, Ideal.exp (linAt A X Wl Wr b (row i) j - rowMax lo A X Wl Wr b (row i)))

theorem relu_ix2 {n ci co : Nat} (z : EReal) (A X : Arr n ci) (Wl Wr : Arr ci co) (b : Arr 1 co) (r : Fin n) (j : Fin co) :
    relu z A X Wl Wr b (ix2 r j) = max (linAt A X Wl Wr b r j) z := rfl

theorem logSoftmax_ix2 {n ci co : Nat} (lo s0 : EReal) (A X : Arr n ci) (Wl Wr : Arr ci co) (b : Arr 1 co) (r : Fin n) (j : Fin co) :
    logSoftmax lo s0 A X Wl Wr b (ix2 r j)
      = (linAt A X Wl Wr b r j - rowMax lo A X Wl Wr b r)
        - Ideal.log (s0 + ∑ j' : Fin co, Ideal.exp (linAt A X Wl Wr b r j' - rowMax lo A X Wl Wr b r)) := rfl

end Cert.Sage

end
-- ==== Proof.SageRef.lean ====
/-
  The reference, layer by layer: each of its three layers is the same function of that layer's inputs as the device computes.

  The reference forms a layer's pre-activation as (A·Wl + b) + X·Wr, the two products as contractions of whole arrays; read at
  a node r and a channel j that is `Sage.linAt` up to moving the bias past the second product (addition of extended reals is
  commutative and associative, infinities included). The hidden layers clamp at zero (`relu0`, `relu1`). The last layer's
  log-softmax takes the row maximum by a reduction started at -∞ and then once more the maximum with -∞, which changes nothing
  (`max_fold`); its sum of exponentials starts from the value of the zero word; and the host's exp and log are the same
  functions of an extended real as the device's (`lsm2`).
-/
import proofs.«125615_j27264452395336_1_alg».proof.Proof.RefReadP
import proofs.«125615_j27264452395336_1_alg».proof.Proof.SageSpec
import Idealize.ShloMosaic.Lib.ValueIdx
import Idealize.ShloMosaic.PureOps.Ideal.Laws
import Mathlib.Data.Finset.Fold

noncomputable section

open Idealize.ShloMosaic Idealize.ShloMosaic.TcCoe Idealize.SL.Sem
open Idealize.ShloMosaic.ValueIdx

namespace Cert.ReferenceIdeal.SageRef

open Cert.ReferenceIdeal Cert.ReferenceIdeal.Gen Cert.ReferenceIdeal.ReadP

variable (x0 : (⟨S1126400x128, .f32⟩ : BufTy).Contents (Elt Ideal))
variable (x1 : (⟨S2x1126400, .i32⟩ : BufTy).Contents (Elt Ideal))
variable (x2 : (⟨S2x112640, .i32⟩ : BufTy).Contents (Elt Ideal))
variable (x3 : (⟨S2x10240, .i32⟩ : BufTy).Contents (Elt Ideal))
variable (x4 : (⟨S256x128, .f32⟩ : BufTy).Contents (Elt Ideal))
variable (x5 : (⟨S256, .f32⟩ : BufTy).Contents (Elt Ideal))
variable (x6 : (⟨S256x128, .f32⟩ : BufTy).Contents (Elt Ideal))
variable (x7 : (⟨S256x256, .f32⟩ : BufTy).Contents (Elt Ideal))
variable (x8 : (⟨S256, .f32⟩ : BufTy).Contents (Elt Ideal))
variable (x9 : (⟨S256x256, .f32⟩ : BufTy).Contents (Elt Ideal))
variable (x10 : (⟨S47x256, .f32⟩ : BufTy).Contents (Elt Ideal))
variable (x11 : (⟨S47, .f32⟩ : BufTy).Contents (Elt Ideal))
variable (x12 : (⟨S47x256, .f32⟩ : BufTy).Contents (Elt Ideal))

/-- The first layer's pre-activation in the reference: the aggregated features times the first weights, plus the bias, plus the nodes' own features times the second weights — the bias added between the two products, which commutes. -/
theorem lin0 (r : Fin 112640) (j : Fin 256) :
    val_main_v31 (F := Ideal) x0 x1 x4 x5 x6 (ix2 r j)
      = Sage.linAt (val_main_v23 (F := Ideal) x0 x1) (val_main_v0 (F := Ideal) x0) (val_main_v24 (F := Ideal) x4) (val_main_v29 (F := Ideal) x6) (val_main_v26 (F := Ideal) x5) r j := by
  rw [val_main_v31_apply, val_main_v28_apply, val_main_v25_apply, val_main_v27_apply, val_main_v30_apply]
  have e1 : ∀ k : Fin 128, lidx_main_v25 (ix2 r j) k = ix2 r k := fun k => funext fun a => Fin.ext (by match a with | ⟨0, _⟩ => rfl | ⟨1, _⟩ => rfl)
  have e2 : ∀ k : Fin 128, ridx_main_v25 (ix2 r j) k = ix2 k j := fun k => funext fun a => Fin.ext (by match a with | ⟨0, _⟩ => rfl | ⟨1, _⟩ => rfl)
  have e3 : ∀ k : Fin 128, lidx_main_v30 (ix2 r j) k = ix2 r k := fun k => funext fun a => Fin.ext (by match a with | ⟨0, _⟩ => rfl | ⟨1, _⟩ => rfl)
  have e4 : ∀ k : Fin 128, ridx_main_v30 (ix2 r j) k = ix2 k j := fun k => funext fun a => Fin.ext (by match a with | ⟨0, _⟩ => rfl | ⟨1, _⟩ => rfl)
  have e5 : idx_main_v27 (ix2 r j) = ix2 (0 : Fin 1) j := funext fun a => Fin.ext (by match a with | ⟨0, _⟩ => rfl | ⟨1, _⟩ => rfl)
  simp only [e1, e2, e3, e4, e5]
  unfold Sage.linAt
  simp only [Ideal.addf_def]
  exact add_right_comm _ _ _

/-- The reference's first hidden layer is `Sage.relu` of its own stages. -/
theorem relu0 :
    val_main_v32 (F := Ideal) x0 x1 x4 x5 x6
      = Sage.relu (Ideal.ofBits .f32 0x00000000#32) (val_main_v23 (F := Ideal) x0 x1) (val_main_v0 (F := Ideal) x0) (val_main_v24 (F := Ideal) x4) (val_main_v29 (F := Ideal) x6) (val_main_v26 (F := Ideal) x5) := by
  funext i
  obtain ⟨r, j, rfl⟩ : ∃ (r : Fin 112640) (j : Fin 256), i = ix2 r j := ⟨i 0, i 1, eq_ix2 i⟩
  rw [Sage.relu_ix2, val_main_v32_apply, val_main_call0_v0_apply, val_main_call0_cst_apply, lin0]
  rfl

/-- The second layer's pre-activation in the reference. -/
theorem lin1 (r : Fin 11264) (j : Fin 256) :
    val_main_v64 (F := Ideal) x0 x1 x2 x4 x5 x6 x7 x8 x9 (ix2 r j)
      = Sage.linAt (val_main_v56 (F := Ideal) x0 x1 x2 x4 x5 x6) (val_main_v33 (F := Ideal) x0 x1 x4 x5 x6) (val_main_v57 (F := Ideal) x7) (val_main_v62 (F := Ideal) x9) (val_main_v59 (F := Ideal) x8) r j := by
  rw [val_main_v64_apply, val_main_v61_apply, val_main_v58_apply, val_main_v60_apply, val_main_v63_apply]
  have e1 : ∀ k : Fin 256, lidx_main_v58 (ix2 r j) k = ix2 r k := fun k => funext fun a => Fin.ext (by match a with | ⟨0, _⟩ => rfl | ⟨1, _⟩ => rfl)
  have e2 : ∀ k : Fin 256, ridx_main_v58 (ix2 r j) k = ix2 k j := fun k => funext fun a => Fin.ext (by match a with | ⟨0, _⟩ => rfl | ⟨1, _⟩ => rfl)
  have e3 : ∀ k : Fin 256, lidx_main_v63 (ix2 r j) k = ix2 r k := fun k => funext fun a => Fin.ext (by match a with | ⟨0, _⟩ => rfl | ⟨1, _⟩ => rfl)
  have e4 : ∀ k : Fin 256, ridx_main_v63 (ix2 r j) k = ix2 k j := fun k => funext fun a => Fin.ext (by match a with | ⟨0, _⟩ => rfl | ⟨1, _⟩ => rfl)
  have e5 : idx_main_v60 (ix2 r j) = ix2 (0 : Fin 1) j := funext fun a => Fin.ext (by match a with | ⟨0, _⟩ => rfl | ⟨1, _⟩ => rfl)
  simp only [e1, e2, e3, e4, e5]
  unfold Sage.linAt
  simp only [Ideal.addf_def]
  exact add_right_comm _ _ _

/-- The reference's second hidden layer is `Sage.relu` of its own stages. -/
theorem relu1 :
    val_main_v65 (F := Ideal) x0 x1 x2 x4 x5 x6 x7 x8 x9
      = Sage.relu (Ideal.ofBits .f32 0x00000000#32) (val_main_v56 (F := Ideal) x0 x1 x2 x4 x5 x6) (val_main_v33 (F := Ideal) x0 x1 x4 x5 x6) (val_main_v57 (F := Ideal) x7) (val_main_v62 (F := Ideal) x9) (val_main_v59 (F := Ideal) x8) := by
  funext i
  obtain ⟨r, j, rfl⟩ : ∃ (r : Fin 11264) (j : Fin 256), i = ix2 r j := ⟨i 0, i 1, eq_ix2 i⟩
  rw [Sage.relu_ix2, val_main_v65_apply, val_main_call1_v0_apply, val_main_call1_cst_apply, lin1]
  rfl

/-- The last layer's pre-activation in the reference. -/
theorem lin2 (r : Fin 1024) (j : Fin 47) :
    val_main_v97 (F := Ideal) x0 x1 x2 x3 x4 x5 x6 x7 x8 x9 x10 x11 x12 (ix2 r j)
      = Sage.linAt (val_main_v89 (F := Ideal) x0 x1 x2 x3 x4 x5 x6 x7 x8 x9) (val_main_v66 (F := Ideal) x0 x1 x2 x4 x5 x6 x7 x8 x9) (val_main_v90 (F := Ideal) x10) (val_main_v95 (F := Ideal) x12) (val_main_v92 (F := Ideal) x11) r j := by
  rw [val_main_v97_apply, val_main_v94_apply, val_main_v91_apply, val_main_v93_apply, val_main_v96_apply]
  have e1 : ∀ k : Fin 256, lidx_main_v91 (ix2 r j) k = ix2 r k := fun k => funext fun a => Fin.ext (by match a with | ⟨0, _⟩ => rfl | ⟨1, _⟩ => rfl)
  have e2 : ∀ k : Fin 256, ridx_main_v91 (ix2 r j) k = ix2 k j := fun k => funext fun a => Fin.ext (by match a with | ⟨0, _⟩ => rfl | ⟨1, _⟩ => rfl)
  have e3 : ∀ k : Fin 256, lidx_main_v96 (ix2 r j) k = ix2 r k := fun k => funext fun a => Fin.ext (by match a with | ⟨0, _⟩ => rfl | ⟨1, _⟩ => rfl)
  have e4 : ∀ k : Fin 256, ridx_main_v96 (ix2 r j) k = ix2 k j := fun k => funext fun a => Fin.ext (by match a with | ⟨0, _⟩ => rfl | ⟨1, _⟩ => rfl)
  have e5 : idx_main_v93 (ix2 r j) = ix2 (0 : Fin 1) j := funext fun a => Fin.ext (by match a with | ⟨0, _⟩ => rfl | ⟨1, _⟩ => rfl)
  simp only [e1, e2, e3, e4, e5]
  unfold Sage.linAt
  simp only [Ideal.addf_def]
  exact add_right_comm _ _ _

/-- Taking the maximum with the fold's own starting value once more changes nothing. -/
theorem max_fold {ι : Type} (s : Finset ι) (b : EReal) (f : ι → EReal) : max b (s.fold max b f) = s.fold max b f :=
  max_eq_right ((Finset.le_fold_max b).mpr (Or.inl le_rfl))

/-- The reference's row maximum of the last pre-activation, as the fold of max over the channels. -/
theorem rmax2 (r : Fin 1024) :
    val_main_call2_v0 (F := Ideal) x0 x1 x2 x3 x4 x5 x6 x7 x8 x9 x10 x11 x12 (ix1 r)
      = (Finset.univ : Finset (Fin 47)).fold max (Ideal.ofBits .f32 0xFF800000#32) (fun j => val_main_v97 (F := Ideal) x0 x1 x2 x3 x4 x5 x6 x7 x8 x9 x10 x11 x12 (ix2 r j)) := by
  unfold val_main_call2_v0
  refine (Host.reduce_eq_fold_single FloatOps.maximumf _ _ reducesTo_S1024x47_S1024_d1 (by decide) h_S_ (ix1 r)).trans ?_
  exact congrArg (fun f => (Finset.univ : Finset (Fin 47)).fold max (Ideal.ofBits .f32 0xFF800000#32) f)
    (funext fun k => congrArg (val_main_v97 (F := Ideal) x0 x1 x2 x3 x4 x5 x6 x7 x8 x9 x10 x11 x12) (funext fun a => Fin.ext (by match a with | ⟨0, _⟩ => rfl | ⟨1, _⟩ => rfl)))

/-- The reference's last layer is `Sage.logSoftmax` of its own stages. -/
theorem lsm2 :
    val_main_v98 (F := Ideal) x0 x1 x2 x3 x4 x5 x6 x7 x8 x9 x10 x11 x12
      = Sage.logSoftmax (Ideal.ofBits .f32 0xFF800000#32) (Ideal.ofBits .f32 0x00000000#32) (val_main_v89 (F := Ideal) x0 x1 x2 x3 x4 x5 x6 x7 x8 x9) (val_main_v66 (F := Ideal) x0 x1 x2 x4 x5 x6 x7 x8 x9) (val_main_v90 (F := Ideal) x10) (val_main_v95 (F := Ideal) x12) (val_main_v92 (F := Ideal) x11) := by
  funext i
  obtain ⟨r, j, rfl⟩ : ∃ (r : Fin 1024) (j : Fin 47), i = ix2 r j := ⟨i 0, i 1, eq_ix2 i⟩
  have i1 : ∀ q : Fin 47, idx_main_call2_v3 (idx_main_call2_v4 (ix2 r q)) = ix1 r := fun q => funext fun a => Fin.ext (by match a with | ⟨0, _⟩ => rfl)
  have i2 : idx_main_call2_v8 (idx_main_call2_v10 (ix2 r j)) = ix1 r := funext fun a => Fin.ext (by match a with | ⟨0, _⟩ => rfl)
  have i3 : ∀ k : Fin 47, idx_main_call2_v7 (ix1 r) k = ix2 r k := fun k => funext fun a => Fin.ext (by match a with | ⟨0, _⟩ => rfl | ⟨1, _⟩ => rfl)
  rw [Sage.logSoftmax_ix2]
  unfold Sage.rowMax
  simp only [val_main_v98_apply, val_main_call2_v5_apply, val_main_call2_v10_apply, val_main_call2_v9_apply, val_main_call2_v8_apply,
    val_main_call2_v7_apply, val_main_call2_v6_apply, val_main_call2_v4_apply, val_main_call2_v3_apply, val_main_call2_v2_apply,
    val_main_call2_v1_apply, val_main_call2_cst_0_apply, val_main_call2_cst_1_apply, i1, i2, i3, rmax2, lin2,
    Ideal.subf_def, Ideal.maximumf_def, Ideal.hostUnary_log_def, Ideal.hostUnary_exp_def, Ideal.ofBits_def, max_fold]

end Cert.ReferenceIdeal.SageRef

end
-- ==== Proof.SageLayer0.lean ====
/-
  Layer 0 on the device: what the tiled product kernel leaves in its result array.

  The call runs over 55 row blocks of 2048 nodes. At block t the body loads rows t·2048 … t·2048 + 2047 of the
  aggregated features and of the nodes' own features, both whole weight matrices and the bias row, forms the two products into
  zero accumulators, adds them and the bias row, clamps below at zero, and stores the block. Read at row p and column q of the
  block this is `Sage.relu` of the five arrays at row t·2048 + p, column q (`pay_apply`, `blk_*`); every row of the result lies
  in exactly the block r / 2048, so the result array as a whole is `Sage.relu` of the arrays the call was entered with (`final`).
-/
import proofs.«125615_j27264452395336_1_alg».proof.Proof.Gen.KernelIdeal.Frame
import proofs.«125615_j27264452395336_1_alg».proof.Proof.SageSpec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Sage0

open Cert.KernelIdeal Cert.KernelIdeal.Gen

theorem hz : (![0, 0] : Fin 2 → Nat) = fun _ => 0 := funext fun a => by fin_cases a <;> rfl

theorem lhs_0 (i : S2048x256.Idx) (q : dot_S2048x128_S128x256_S2048x256_1_0_0_1_n_n.contr.Idx) : (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
theorem lhs_1 (i : S2048x256.Idx) (q : dot_S2048x128_S128x256_S2048x256_1_0_0_1_n_n.contr.Idx) : (dot_S2048x128_S128x256_S2048x256_1_0_0_1_n_n.lhsIdx i q 1).val = (q ⟨0, by decide⟩).val :=
  dot_S2048x128_S128x256_S2048x256_1_0_0_1_n_n.lhsIdx_val_of_single rfl i q
theorem rhs_0 (i : S2048x256.Idx) (q : dot_S2048x128_S128x256_S2048x256_1_0_0_1_n_n.contr.Idx) : (dot_S2048x128_S128x256_S2048x256_1_0_0_1_n_n.rhsIdx i q 0).val = (q ⟨0, by decide⟩).val :=
  dot_S2048x128_S128x256_S2048x256_1_0_0_1_n_n.rhsIdx_val_of_single rfl i q
theorem rhs_1 (i : S2048x256.Idx) (q : dot_S2048x128_S128x256_S2048x256_1_0_0_1_n_n.contr.Idx) : (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

/-- A product into the zero accumulator, read at row p and column q: the sum over the contracted axis. -/
theorem mm_apply (l : FVec Ideal S2048x128 .bf16) (r : FVec Ideal S128x256 .bf16) (p : Fin 2048) (q : Fin 256) :
    matmul dot_S2048x128_S128x256_S2048x256_1_0_0_1_n_n none l r (constant S2048x256 .f32 0x00000000#32) (ix2 p q)
      = ∑ k : Fin 128, l (ix2 p k) * r (ix2 k q) := by
  simp only [matmul]
  rw [Ideal.matmul_constant_zero_apply, ← Equiv.sum_comp (ValueIdx.contrEquiv1 dot_S2048x128_S128x256_S2048x256_1_0_0_1_n_n 128 rfl rfl).symm]
  refine Finset.sum_congr rfl fun k _ => ?_
  have hk := ValueIdx.contrEquiv1_symm_val dot_S2048x128_S128x256_S2048x256_1_0_0_1_n_n 128 rfl rfl k
  have el : dot_S2048x128_S128x256_S2048x256_1_0_0_1_n_n.lhsIdx (ix2 p q) ((ValueIdx.contrEquiv1 dot_S2048x128_S128x256_S2048x256_1_0_0_1_n_n 128 rfl rfl).symm k) = ix2 p k := funext fun a => Fin.ext (by
    match a with
    | ⟨0, _⟩ => exact lhs_0 _ _
    | ⟨1, _⟩ => exact (lhs_1 _ _).trans hk)
  have er : dot_S2048x128_S128x256_S2048x256_1_0_0_1_n_n.rhsIdx (ix2 p q) ((ValueIdx.contrEquiv1 dot_S2048x128_S128x256_S2048x256_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The body's value at row p and column q of the block: the two products added, the bias row added, clamped below at zero. -/
theorem pay_apply (x0 x1 : Vec Ideal S2048x128 .f32) (x2 x3 : Vec Ideal S128x256 .bf16) (x4 : Vec Ideal S1x256 .f32)
    (p : Fin 2048) (q : Fin 256) :
    k0_pay1 (F := Ideal) x0 x1 x2 x3 x4 (ix2 p q)
      = max ((∑ k : Fin 128, x0 (ix2 p k) * x2 (ix2 k q)) + (∑ k : Fin 128, x1 (ix2 p k) * x3 (ix2 k q)) + x4 (ix2 (0 : Fin 1) q))
          (Ideal.ofBits .f32 0x00000000#32) := by
  unfold k0_pay1
  simp only [shapeCast_self]
  show max ((matmul (F := Ideal) dot_S2048x128_S128x256_S2048x256_1_0_0_1_n_n none (truncf .bf16 x0 bitsLt_bf16_f32) x2 (constant S2048x256 .f32 0x00000000#32) (ix2 p q)
        + matmul (F := Ideal) dot_S2048x128_S128x256_S2048x256_1_0_0_1_n_n none (truncf .bf16 x1 bitsLt_bf16_f32) x3 (constant S2048x256 .f32 0x00000000#32) (ix2 p q))
        + broadcastTo S2048x256 x4 broadcasts_S1x256_S2048x256 (ix2 p q)) (Ideal.ofBits .f32 0x00000000#32) = _
  rw [mm_apply, mm_apply, broadcastTo_1b_ab_apply]
  rfl

/-- Where each window's block sits at point t: the two feature windows and the result move down the rows with t, the weights
    and the bias stay put. Decided over the grid. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 55 := by
  have h := t.isLt
  have hN : cfg0.N = 55 := N_0
  omega

variable (V : (c : Dev nD) → (b : Ref sig .tc) → Buf (Elt Ideal) ((c : Thread nD τ).loc b))

/-- The five arrays the call is entered with. -/
abbrev arrA (c : Dev nD) : Sage.Arr 112640 128 := V c (Pipeline.arrRef spec0 0)
abbrev arrX (c : Dev nD) : Sage.Arr 112640 128 := V c (Pipeline.arrRef spec0 1)
abbrev arrWl (c : Dev nD) : Sage.Arr 128 256 := V c (Pipeline.arrRef spec0 2)
abbrev arrWr (c : Dev nD) : Sage.Arr 128 256 := V c (Pipeline.arrRef spec0 3)
abbrev arrB (c : Dev nD) : Sage.Arr 1 256 := V c (Pipeline.arrRef spec0 4)

/-- Block t of the aggregated features is rows t·2048 … of the array. -/
theorem blk_0 (c : Dev nD) (t : Fin cfg0.N) (p : Fin 2048) (k : Fin 128) (r : Fin 112640) (hr : r.val = t.val * 2048 + p.val) :
    (iblk0 V c 0 t : Vec Ideal S2048x128 .f32) (ix2 p k) = arrA V c (ix2 r k) := by
  obtain ⟨e0, e1, -⟩ := idx_facts t
  unfold iblk0
  rw [View.read_apply]
  refine congrArg (V c (Pipeline.arrRef spec0 0)) (funext fun a => Fin.ext ?_)
  match a with
  | ⟨0, _⟩ => show win0_0.index t (0 : Fin 2) * 2048 + 1 * p.val = r.val; rw [e0, hr]; omega
  | ⟨1, _⟩ => show win0_0.index t (1 : Fin 2) * 128 + 1 * k.val = k.val; rw [e1]; omega

/-- Block t of the nodes' own features likewise. -/
theorem blk_1 (c : Dev nD) (t : Fin cfg0.N) (p : Fin 2048) (k : Fin 128) (r : Fin 112640) (hr : r.val = t.val * 2048 + p.val) :
    (iblk0 V c 1 t : Vec Ideal S2048x128 .f32) (ix2 p k) = arrX V c (ix2 r k) := by
  obtain ⟨-, -, e0, e1, -⟩ := idx_facts t
  unfold iblk0
  rw [View.read_apply]
  refine congrArg (V c (Pipeline.arrRef spec0 1)) (funext fun a => Fin.ext ?_)
  match a with
  | ⟨0, _⟩ => show win0_1.index t (0 : Fin 2) * 2048 + 1 * p.val = r.val; rw [e0, hr]; omega
  | ⟨1, _⟩ => show win0_1.index t (1 : Fin 2) * 128 + 1 * k.val = k.val; rw [e1]; omega

/-- The weight windows and the bias window are the whole arrays at every point. -/
theorem blk_2 (c : Dev nD) (t : Fin cfg0.N) (k : Fin 128) (q : Fin 256) :
    (iblk0 V c 2 t : Vec Ideal S128x256 .bf16) (ix2 k q) = arrWl V c (ix2 k q) := by
  obtain ⟨-, -, -, -, e0, e1, -⟩ := idx_facts t
  unfold iblk0
  rw [View.read_apply]
  refine congrArg (V c (Pipeline.arrRef spec0 2)) (funext fun a => Fin.ext ?_)
  match a with
  | ⟨0, _⟩ => show win0_2.index t (0 : Fin 2) * 128 + 1 * k.val = k.val; rw [e0]; omega
  | ⟨1, _⟩ => show win0_2.index t (1 : Fin 2) * 256 + 1 * q.val = q.val; rw [e1]; omega

theorem blk_3 (c : Dev nD) (t : Fin cfg0.N) (k : Fin 128) (q : Fin 256) :
    (iblk0 V c 3 t : Vec Ideal S128x256 .bf16) (ix2 k q) = arrWr V c (ix2 k q) := by
  obtain ⟨-, -, -, -, -, -, e0, e1, -⟩ := idx_facts t
  unfold iblk0
  rw [View.read_apply]
  refine congrArg (V c (Pipeline.arrRef spec0 3)) (funext fun a => Fin.ext ?_)
  match a with
  | ⟨0, _⟩ => show win0_3.index t (0 : Fin 2) * 128 + 1 * k.val = k.val; rw [e0]; omega
  | ⟨1, _⟩ => show win0_3.index t (1 : Fin 2) * 256 + 1 * q.val = q.val; rw [e1]; omega

theorem blk_4 (c : Dev nD) (t : Fin cfg0.N) (q : Fin 256) :
    (iblk0 V c 4 t : Vec Ideal S1x256 .f32) (ix2 (0 : Fin 1) q) = arrB V c (ix2 (0 : Fin 1) q) := by
  obtain ⟨-, -, -, -, -, -, -, -, e0, e1, -⟩ := idx_facts t
  unfold iblk0
  rw [View.read_apply]
  refine congrArg (V c (Pipeline.arrRef spec0 4)) (funext fun a => Fin.ext ?_)
  match a with
  | ⟨0, _⟩ => show win0_4.index t (0 : Fin 2) * 1 + 1 * 0 = 0; rw [e0]
  | ⟨1, _⟩ => show win0_4.index t (1 : Fin 2) * 256 + 1 * q.val = q.val; rw [e1]; omega

/-- The layer's result array as one function of the arrays the call is entered with. -/
abbrev G (c : Dev nD) : Sage.Arr 112640 256 :=
  Sage.relu (Ideal.ofBits .f32 0x00000000#32) (arrA V c) (arrX V c) (arrWl V c) (arrWr V c) (arrB V c)

/-- What point t writes back is block t of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2048x128) hz, View.ld_unit_zero (S := S128x256) hz, View.ld_unit_zero (S := S1x256) hz]
  funext j
  obtain ⟨p, q, rfl⟩ : ∃ (p : Fin 2048) (q : Fin 256), j = ix2 p q := ⟨j 0, j 1, eq_ix2 j⟩
  have ht := t_lt t
  obtain ⟨-, -, -, -, -, -, -, -, -, -, e0, e1⟩ := idx_facts t
  have hemb : ((cfg0.win 5).blk t).view.emb (ix2 p q) = ix2 (⟨t.val * 2048 + p.val, by have := p.isLt; omega⟩ : Fin 112640) q := by
    funext a; apply Fin.ext
    match a with
    | ⟨0, _⟩ => show win0_5.index t (0 : Fin 2) * 2048 + 1 * p.val = t.val * 2048 + p.val; rw [e0]; omega
    | ⟨1, _⟩ => show win0_5.index t (1 : Fin 2) * 256 + 1 * q.val = q.val; rw [e1]; omega
  show k0_pay1 (F := Ideal) (iblk0 V c 0 t) (iblk0 V c 1 t) (iblk0 V c 2 t) (iblk0 V c 3 t) (iblk0 V c 4 t) (ix2 p q)
      = G V c (((cfg0.win 5).blk t).view.emb (ix2 p q))
  rw [hemb]
  refine (pay_apply (iblk0 V c 0 t) (iblk0 V c 1 t) (iblk0 V c 2 t) (iblk0 V c 3 t) (iblk0 V c 4 t) p q).trans ?_
  show _ = max (Sage.linAt (arrA V c) (arrX V c) (arrWl V c) (arrWr V c) (arrB V c) (⟨t.val * 2048 + p.val, by have := p.isLt; omega⟩ : Fin 112640) q) (Ideal.ofBits .f32 0x00000000#32)
  unfold Sage.linAt
  simp only [blk_0 V c t _ _ ⟨t.val * 2048 + p.val, by have := p.isLt; omega⟩ rfl, blk_1 V c t _ _ ⟨t.val * 2048 + p.val, by have := p.isLt; omega⟩ rfl,
    blk_2 V c t, blk_3 V c t, blk_4 V c t]

/-- An index of the result array is in point t's block iff its row is in rows t·2048 … and its column anywhere. -/
theorem mem_blk (t : Fin cfg0.N) (i : S112640x256.Idx) :
    i ∈ ((cfg0.win 5).blk t).view.set ↔ ∀ a : Fin 2, win0_5.index t a * S2048x256.size a ≤ (i a).val ∧ (i a).val < win0_5.index t a * S2048x256.size a + S2048x256.size a := by
  show i ∈ ((View.whole main_v29).slice (win0_5.rect t)).set ↔ _
  rw [View.set_slice_whole, Rect.mem_set_unit]
  exact Iff.rfl

/-- Every index of the result array lies in the block of row / 2048. -/
theorem cover (i : S112640x256.Idx) : ∃ t : Fin cfg0.N, (cfg0.win 5).flush t = true ∧ i ∈ ((cfg0.win 5).blk t).view.set := by
  have hi0 : (i 0).val < 112640 := (i 0).isLt
  have hi1 : (i 1).val < 256 := (i 1).isLt
  have hN : cfg0.N = 55 := N_0
  refine ⟨⟨(i 0).val / 2048, by rw [hN]; omega⟩, flush0_5 _, ?_⟩
  rw [mem_blk]
  obtain ⟨-, -, -, -, -, -, -, -, -, -, e0, e1⟩ := idx_facts ⟨(i 0).val / 2048, by rw [hN]; omega⟩
  intro a
  match a with
  | ⟨0, _⟩ =>
    show win0_5.index _ (0 : Fin 2) * 2048 ≤ (i 0).val ∧ (i 0).val < win0_5.index _ (0 : Fin 2) * 2048 + 2048
    rw [e0]; show (i 0).val / 2048 * 2048 ≤ (i 0).val ∧ (i 0).val < (i 0).val / 2048 * 2048 + 2048; omega
  | ⟨1, _⟩ =>
    show win0_5.index _ (1 : Fin 2) * 256 ≤ (i 1).val ∧ (i 1).val < win0_5.index _ (1 : Fin 2) * 256 + 256
    rw [e1]; omega

/-- THE RESULT ARRAY after the call: `G` of the arrays the call was entered with. -/
theorem final (c : Dev nD) : (dat0 V c).arrAt 5 cfg0.N = G V c :=
  (dat0 V c).arrAt_eq_of_cover 5 (G V c) (fun t _ => flushed_eq V c t) cover

end Cert.KernelIdeal.Sage0

end
-- ==== Proof.SageLayer1.lean ====
/-
  Layer 1 on the device: what the tiled product kernel leaves in its result array.

  The call runs over 11 row blocks of 1024 nodes. At block t the body loads rows t·1024 … t·1024 + 1023 of the
  aggregated features and of the nodes' own features, both whole weight matrices and the bias row, forms the two products into
  zero accumulators, adds them and the bias row, clamps below at zero, and stores the block. Read at row p and column q of the
  block this is `Sage.relu` of the five arrays at row t·1024 + p, column q (`pay_apply`, `blk_*`); every row of the result lies
  in exactly the block r / 1024, so the result array as a whole is `Sage.relu` of the arrays the call was entered with (`final`).
-/
import proofs.«125615_j27264452395336_1_alg».proof.Proof.Gen.KernelIdeal.Frame
import proofs.«125615_j27264452395336_1_alg».proof.Proof.SageSpec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Sage1

open Cert.KernelIdeal Cert.KernelIdeal.Gen

theorem hz : (![0, 0] : Fin 2 → Nat) = fun _ => 0 := funext fun a => by fin_cases a <;> rfl

theorem lhs_0 (i : S1024x256.Idx) (q : dot_S1024x256_S256x256_S1024x256_1_0_0_1_n_n.contr.Idx) : (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs_1 (i : S1024x256.Idx) (q : dot_S1024x256_S256x256_S1024x256_1_0_0_1_n_n.contr.Idx) : (dot_S1024x256_S256x256_S1024x256_1_0_0_1_n_n.lhsIdx i q 1).val = (q ⟨0, by decide⟩).val :=
  dot_S1024x256_S256x256_S1024x256_1_0_0_1_n_n.lhsIdx_val_of_single rfl i q
theorem rhs_0 (i : S1024x256.Idx) (q : dot_S1024x256_S256x256_S1024x256_1_0_0_1_n_n.contr.Idx) : (dot_S1024x256_S256x256_S1024x256_1_0_0_1_n_n.rhsIdx i q 0).val = (q ⟨0, by decide⟩).val :=
  dot_S1024x256_S256x256_S1024x256_1_0_0_1_n_n.rhsIdx_val_of_single rfl i q
theorem rhs_1 (i : S1024x256.Idx) (q : dot_S1024x256_S256x256_S1024x256_1_0_0_1_n_n.contr.Idx) : (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- A product into the zero accumulator, read at row p and column q: the sum over the contracted axis. -/
theorem mm_apply (l : FVec Ideal S1024x256 .bf16) (r : FVec Ideal S256x256 .bf16) (p : Fin 1024) (q : Fin 256) :
    matmul dot_S1024x256_S256x256_S1024x256_1_0_0_1_n_n none l r (constant S1024x256 .f32 0x00000000#32) (ix2 p q)
      = ∑ k : Fin 256, l (ix2 p k) * r (ix2 k q) := by
  simp only [matmul]
  rw [Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 p q) ((ValueIdx.contrEquiv1 dot_S1024x256_S256x256_S1024x256_1_0_0_1_n_n 256 rfl rfl).symm k) = ix2 p k := funext fun a => Fin.ext (by
    match a with
    | ⟨0, _⟩ => exact lhs_0 _ _
    | ⟨1, _⟩ => exact (lhs_1 _ _).trans hk)
  have er : dot_S1024x256_S256x256_S1024x256_1_0_0_1_n_n.rhsIdx (ix2 p q) ((ValueIdx.contrEquiv1 dot_S1024x256_S256x256_S1024x256_1_0_0_1_n_n 256 rfl rfl).symm k) = ix2 k q := funext fun a => Fin.ext (by
    match a with
    | ⟨0, _⟩ => exact (rhs_0 _ _).trans hk
    | ⟨1, _⟩ => exact rhs_1 _ _)
  rw [el, er]

/-- The body's value at row p and column q of the block: the two products added, the bias row added, clamped below at zero. -/
theorem pay_apply (x0 x1 : Vec Ideal S1024x256 .f32) (x2 x3 : Vec Ideal S256x256 .bf16) (x4 : Vec Ideal S1x256 .f32)
    (p : Fin 1024) (q : Fin 256) :
    k1_pay1 (F := Ideal) x0 x1 x2 x3 x4 (ix2 p q)
      = max ((∑ k : Fin 256, x0 (ix2 p k) * x2 (ix2 k q)) + (∑ k : Fin 256, x1 (ix2 p k) * x3 (ix2 k q)) + x4 (ix2 (0 : Fin 1) q))
          (Ideal.ofBits .f32 0x00000000#32) := by
  unfold k1_pay1
  simp only [shapeCast_self]
  show max ((matmul (F := Ideal) dot_S1024x256_S256x256_S1024x256_1_0_0_1_n_n none (truncf .bf16 x0 bitsLt_bf16_f32) x2 (constant S1024x256 .f32 0x00000000#32) (ix2 p q)
        + matmul (F := Ideal) dot_S1024x256_S256x256_S1024x256_1_0_0_1_n_n none (truncf .bf16 x1 bitsLt_bf16_f32) x3 (constant S1024x256 .f32 0x00000000#32) (ix2 p q))
        + broadcastTo S1024x256 x4 broadcasts_S1x256_S1024x256 (ix2 p q)) (Ideal.ofBits .f32 0x00000000#32) = _
  rw [mm_apply, mm_apply, broadcastTo_1b_ab_apply]
  rfl

/-- Where each window's block sits at point t: the two feature windows and the result move down the rows with t, the weights
    and the bias stay put. Decided over the grid. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 11 := by
  have h := t.isLt
  have hN : cfg1.N = 11 := N_1
  omega

variable (V : (c : Dev nD) → (b : Ref sig .tc) → Buf (Elt Ideal) ((c : Thread nD τ).loc b))

/-- The five arrays the call is entered with. -/
abbrev arrA (c : Dev nD) : Sage.Arr 11264 256 := V c (Pipeline.arrRef spec1 0)
abbrev arrX (c : Dev nD) : Sage.Arr 11264 256 := V c (Pipeline.arrRef spec1 1)
abbrev arrWl (c : Dev nD) : Sage.Arr 256 256 := V c (Pipeline.arrRef spec1 2)
abbrev arrWr (c : Dev nD) : Sage.Arr 256 256 := V c (Pipeline.arrRef spec1 3)
abbrev arrB (c : Dev nD) : Sage.Arr 1 256 := V c (Pipeline.arrRef spec1 4)

/-- Block t of the aggregated features is rows t·1024 … of the array. -/
theorem blk_0 (c : Dev nD) (t : Fin cfg1.N) (p : Fin 1024) (k : Fin 256) (r : Fin 11264) (hr : r.val = t.val * 1024 + p.val) :
    (iblk1 V c 0 t : Vec Ideal S1024x256 .f32) (ix2 p k) = arrA V c (ix2 r k) := by
  obtain ⟨e0, e1, -⟩ := idx_facts t
  unfold iblk1
  rw [View.read_apply]
  refine congrArg (V c (Pipeline.arrRef spec1 0)) (funext fun a => Fin.ext ?_)
  match a with
  | ⟨0, _⟩ => show win1_0.index t (0 : Fin 2) * 1024 + 1 * p.val = r.val; rw [e0, hr]; omega
  | ⟨1, _⟩ => show win1_0.index t (1 : Fin 2) * 256 + 1 * k.val = k.val; rw [e1]; omega

/-- Block t of the nodes' own features likewise. -/
theorem blk_1 (c : Dev nD) (t : Fin cfg1.N) (p : Fin 1024) (k : Fin 256) (r : Fin 11264) (hr : r.val = t.val * 1024 + p.val) :
    (iblk1 V c 1 t : Vec Ideal S1024x256 .f32) (ix2 p k) = arrX V c (ix2 r k) := by
  obtain ⟨-, -, e0, e1, -⟩ := idx_facts t
  unfold iblk1
  rw [View.read_apply]
  refine congrArg (V c (Pipeline.arrRef spec1 1)) (funext fun a => Fin.ext ?_)
  match a with
  | ⟨0, _⟩ => show win1_1.index t (0 : Fin 2) * 1024 + 1 * p.val = r.val; rw [e0, hr]; omega
  | ⟨1, _⟩ => show win1_1.index t (1 : Fin 2) * 256 + 1 * k.val = k.val; rw [e1]; omega

/-- The weight windows and the bias window are the whole arrays at every point. -/
theorem blk_2 (c : Dev nD) (t : Fin cfg1.N) (k : Fin 256) (q : Fin 256) :
    (iblk1 V c 2 t : Vec Ideal S256x256 .bf16) (ix2 k q) = arrWl V c (ix2 k q) := by
  obtain ⟨-, -, -, -, e0, e1, -⟩ := idx_facts t
  unfold iblk1
  rw [View.read_apply]
  refine congrArg (V c (Pipeline.arrRef spec1 2)) (funext fun a => Fin.ext ?_)
  match a with
  | ⟨0, _⟩ => show win1_2.index t (0 : Fin 2) * 256 + 1 * k.val = k.val; rw [e0]; omega
  | ⟨1, _⟩ => show win1_2.index t (1 : Fin 2) * 256 + 1 * q.val = q.val; rw [e1]; omega

theorem blk_3 (c : Dev nD) (t : Fin cfg1.N) (k : Fin 256) (q : Fin 256) :
    (iblk1 V c 3 t : Vec Ideal S256x256 .bf16) (ix2 k q) = arrWr V c (ix2 k q) := by
  obtain ⟨-, -, -, -, -, -, e0, e1, -⟩ := idx_facts t
  unfold iblk1
  rw [View.read_apply]
  refine congrArg (V c (Pipeline.arrRef spec1 3)) (funext fun a => Fin.ext ?_)
  match a with
  | ⟨0, _⟩ => show win1_3.index t (0 : Fin 2) * 256 + 1 * k.val = k.val; rw [e0]; omega
  | ⟨1, _⟩ => show win1_3.index t (1 : Fin 2) * 256 + 1 * q.val = q.val; rw [e1]; omega

theorem blk_4 (c : Dev nD) (t : Fin cfg1.N) (q : Fin 256) :
    (iblk1 V c 4 t : Vec Ideal S1x256 .f32) (ix2 (0 : Fin 1) q) = arrB V c (ix2 (0 : Fin 1) q) := by
  obtain ⟨-, -, -, -, -, -, -, -, e0, e1, -⟩ := idx_facts t
  unfold iblk1
  rw [View.read_apply]
  refine congrArg (V c (Pipeline.arrRef spec1 4)) (funext fun a => Fin.ext ?_)
  match a with
  | ⟨0, _⟩ => show win1_4.index t (0 : Fin 2) * 1 + 1 * 0 = 0; rw [e0]
  | ⟨1, _⟩ => show win1_4.index t (1 : Fin 2) * 256 + 1 * q.val = q.val; rw [e1]; omega

/-- The layer's result array as one function of the arrays the call is entered with. -/
abbrev G (c : Dev nD) : Sage.Arr 11264 256 :=
  Sage.relu (Ideal.ofBits .f32 0x00000000#32) (arrA V c) (arrX V c) (arrWl V c) (arrWr V c) (arrB V c)

/-- What point t writes back is block t of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S1024x256) hz, View.ld_unit_zero (S := S256x256) hz, View.ld_unit_zero (S := S1x256) hz]
  funext j
  obtain ⟨p, q, rfl⟩ : ∃ (p : Fin 1024) (q : Fin 256), j = ix2 p q := ⟨j 0, j 1, eq_ix2 j⟩
  have ht := t_lt t
  obtain ⟨-, -, -, -, -, -, -, -, -, -, e0, e1⟩ := idx_facts t
  have hemb : ((cfg1.win 5).blk t).view.emb (ix2 p q) = ix2 (⟨t.val * 1024 + p.val, by have := p.isLt; omega⟩ : Fin 11264) q := by
    funext a; apply Fin.ext
    match a with
    | ⟨0, _⟩ => show win1_5.index t (0 : Fin 2) * 1024 + 1 * p.val = t.val * 1024 + p.val; rw [e0]; omega
    | ⟨1, _⟩ => show win1_5.index t (1 : Fin 2) * 256 + 1 * q.val = q.val; rw [e1]; omega
  show k1_pay1 (F := Ideal) (iblk1 V c 0 t) (iblk1 V c 1 t) (iblk1 V c 2 t) (iblk1 V c 3 t) (iblk1 V c 4 t) (ix2 p q)
      = G V c (((cfg1.win 5).blk t).view.emb (ix2 p q))
  rw [hemb]
  refine (pay_apply (iblk1 V c 0 t) (iblk1 V c 1 t) (iblk1 V c 2 t) (iblk1 V c 3 t) (iblk1 V c 4 t) p q).trans ?_
  show _ = max (Sage.linAt (arrA V c) (arrX V c) (arrWl V c) (arrWr V c) (arrB V c) (⟨t.val * 1024 + p.val, by have := p.isLt; omega⟩ : Fin 11264) q) (Ideal.ofBits .f32 0x00000000#32)
  unfold Sage.linAt
  simp only [blk_0 V c t _ _ ⟨t.val * 1024 + p.val, by have := p.isLt; omega⟩ rfl, blk_1 V c t _ _ ⟨t.val * 1024 + p.val, by have := p.isLt; omega⟩ rfl,
    blk_2 V c t, blk_3 V c t, blk_4 V c t]

/-- An index of the result array is in point t's block iff its row is in rows t·1024 … and its column anywhere. -/
theorem mem_blk (t : Fin cfg1.N) (i : S11264x256.Idx) :
    i ∈ ((cfg1.win 5).blk t).view.set ↔ ∀ a : Fin 2, win1_5.index t a * S1024x256.size a ≤ (i a).val ∧ (i a).val < win1_5.index t a * S1024x256.size a + S1024x256.size a := by
  show i ∈ ((View.whole main_v59).slice (win1_5.rect t)).set ↔ _
  rw [View.set_slice_whole, Rect.mem_set_unit]
  exact Iff.rfl

/-- Every index of the result array lies in the block of row / 1024. -/
theorem cover (i : S11264x256.Idx) : ∃ t : Fin cfg1.N, (cfg1.win 5).flush t = true ∧ i ∈ ((cfg1.win 5).blk t).view.set := by
  have hi0 : (i 0).val < 11264 := (i 0).isLt
  have hi1 : (i 1).val < 256 := (i 1).isLt
  have hN : cfg1.N = 11 := N_1
  refine ⟨⟨(i 0).val / 1024, by rw [hN]; omega⟩, flush1_5 _, ?_⟩
  rw [mem_blk]
  obtain ⟨-, -, -, -, -, -, -, -, -, -, e0, e1⟩ := idx_facts ⟨(i 0).val / 1024, by rw [hN]; omega⟩
  intro a
  match a with
  | ⟨0, _⟩ =>
    show win1_5.index _ (0 : Fin 2) * 1024 ≤ (i 0).val ∧ (i 0).val < win1_5.index _ (0 : Fin 2) * 1024 + 1024
    rw [e0]; show (i 0).val / 1024 * 1024 ≤ (i 0).val ∧ (i 0).val < (i 0).val / 1024 * 1024 + 1024; omega
  | ⟨1, _⟩ =>
    show win1_5.index _ (1 : Fin 2) * 256 ≤ (i 1).val ∧ (i 1).val < win1_5.index _ (1 : Fin 2) * 256 + 256
    rw [e1]; omega

/-- THE RESULT ARRAY after the call: `G` of the arrays the call was entered with. -/
theorem final (c : Dev nD) : (dat1 V c).arrAt 5 cfg1.N = G V c :=
  (dat1 V c).arrAt_eq_of_cover 5 (G V c) (fun t _ => flushed_eq V c t) cover

end Cert.KernelIdeal.Sage1

end
-- ==== Proof.SageLayer2.lean ====
/-
  The last layer on the device: what the product kernel with the log-softmax epilogue leaves in its result array.

  The call has one grid point, whose blocks are the whole arrays (1024 nodes). The body forms the pre-activation h as in the
  hidden layers (two products into zero accumulators, added, the bias row added), then along each row: the maximum M of h
  (a lane reduction started at the pattern of -∞), z = h - M, the sum of exp z (a lane reduction started at the pattern of 0,
  which contributes nothing), and z - log of that sum. Read at row p and column q this is `Sage.logSoftmax` of the five arrays
  (`lsm_apply`, `pre_apply`, `blk_*`); the one block covers the result array (`final`).
-/
import proofs.«125615_j27264452395336_1_alg».proof.Proof.Gen.KernelIdeal.Frame
import proofs.«125615_j27264452395336_1_alg».proof.Proof.SageSpec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Sage2

open Cert.KernelIdeal Cert.KernelIdeal.Gen

theorem hz : (![0, 0] : Fin 2 → Nat) = fun _ => 0 := funext fun a => by fin_cases a <;> rfl

theorem lhs_0 (i : S1024x47.Idx) (q : dot_S1024x256_S256x47_S1024x47_1_0_0_1_n_n.contr.Idx) : (dot_S1024x256_S256x47_S1024x47_1_0_0_1_n_n.lhsIdx i q 0).val = (i 0).val := by
  unfold DotDims.lhsIdx
  rw [dif_neg (show ¬(0 : Fin S1024x256.rank) ∈ dot_S1024x256_S256x47_S1024x47_1_0_0_1_n_n.lhsBatch by decide), dif_pos (show (0 : Fin S1024x256.rank) ∈ dot_S1024x256_S256x47_S1024x47_1_0_0_1_n_n.lhsNonContracting by decide)]
  rfl
theorem lhs_1 (i : S1024x47.Idx) (q : dot_S1024x256_S256x47_S1024x47_1_0_0_1_n_n.contr.Idx) : (dot_S1024x256_S256x47_S1024x47_1_0_0_1_n_n.lhsIdx i q 1).val = (q ⟨0, by decide⟩).val :=
  dot_S1024x256_S256x47_S1024x47_1_0_0_1_n_n.lhsIdx_val_of_single rfl i q
theorem rhs_0 (i : S1024x47.Idx) (q : dot_S1024x256_S256x47_S1024x47_1_0_0_1_n_n.contr.Idx) : (dot_S1024x256_S256x47_S1024x47_1_0_0_1_n_n.rhsIdx i q 0).val = (q ⟨0, by decide⟩).val :=
  dot_S1024x256_S256x47_S1024x47_1_0_0_1_n_n.rhsIdx_val_of_single rfl i q
theorem rhs_1 (i : S1024x47.Idx) (q : dot_S1024x256_S256x47_S1024x47_1_0_0_1_n_n.contr.Idx) : (dot_S1024x256_S256x47_S1024x47_1_0_0_1_n_n.rhsIdx i q 1).val = (i 1).val := by
  unfold DotDims.rhsIdx
  rw [dif_neg (show ¬(1 : Fin S256x47.rank) ∈ dot_S1024x256_S256x47_S1024x47_1_0_0_1_n_n.rhsBatch by decide), dif_pos (show (1 : Fin S256x47.rank) ∈ dot_S1024x256_S256x47_S1024x47_1_0_0_1_n_n.rhsNonContracting by decide)]
  rfl

/-- A product into the zero accumulator, read at row p and column q: the sum over the contracted axis. -/
theorem mm_apply (l : FVec Ideal S1024x256 .bf16) (r : FVec Ideal S256x47 .bf16) (p : Fin 1024) (q : Fin 47) :
    matmul dot_S1024x256_S256x47_S1024x47_1_0_0_1_n_n none l r (constant S1024x47 .f32 0x00000000#32) (ix2 p q)
      = ∑ k : Fin 256, l (ix2 p k) * r (ix2 k q) := by
  simp only [matmul]
  rw [Ideal.matmul_constant_zero_apply, ← Equiv.sum_comp (ValueIdx.contrEquiv1 dot_S1024x256_S256x47_S1024x47_1_0_0_1_n_n 256 rfl rfl).symm]
  refine Finset.sum_congr rfl fun k _ => ?_
  have hk := ValueIdx.contrEquiv1_symm_val dot_S1024x256_S256x47_S1024x47_1_0_0_1_n_n 256 rfl rfl k
  have el : dot_S1024x256_S256x47_S1024x47_1_0_0_1_n_n.lhsIdx (ix2 p q) ((ValueIdx.contrEquiv1 dot_S1024x256_S256x47_S1024x47_1_0_0_1_n_n 256 rfl rfl).symm k) = ix2 p k := funext fun a => Fin.ext (by
    match a with
    | ⟨0, _⟩ => exact lhs_0 _ _
    | ⟨1, _⟩ => exact (lhs_1 _ _).trans hk)
  have er : dot_S1024x256_S256x47_S1024x47_1_0_0_1_n_n.rhsIdx (ix2 p q) ((ValueIdx.contrEquiv1 dot_S1024x256_S256x47_S1024x47_1_0_0_1_n_n 256 rfl rfl).symm k) = ix2 k q := funext fun a => Fin.ext (by
    match a with
    | ⟨0, _⟩ => exact (rhs_0 _ _).trans hk
    | ⟨1, _⟩ => exact rhs_1 _ _)
  rw [el, er]

/-- The pre-activation block: the two products into zero accumulators, added, and the bias row added. -/
def pre (x0 x1 : FVec Ideal S1024x256 .f32) (x2 x3 : FVec Ideal S256x47 .bf16) (x4 : FVec Ideal S1x47 .f32) : FVec Ideal S1024x47 .f32 :=
  addf (addf (matmul (F := Ideal) dot_S1024x256_S256x47_S1024x47_1_0_0_1_n_n none (truncf .bf16 x0 bitsLt_bf16_f32) x2 (constant S1024x47 .f32 0x00000000#32))
      (matmul (F := Ideal) dot_S1024x256_S256x47_S1024x47_1_0_0_1_n_n none (truncf .bf16 x1 bitsLt_bf16_f32) x3 (constant S1024x47 .f32 0x00000000#32)))
    (broadcastTo S1024x47 x4 broadcasts_S1x47_S1024x47)

theorem pre_apply (x0 x1 : FVec Ideal S1024x256 .f32) (x2 x3 : FVec Ideal S256x47 .bf16) (x4 : FVec Ideal S1x47 .f32)
    (p : Fin 1024) (q : Fin 47) :
    pre x0 x1 x2 x3 x4 (ix2 p q)
      = (∑ k : Fin 256, x0 (ix2 p k) * x2 (ix2 k q)) + (∑ k : Fin 256, x1 (ix2 p k) * x3 (ix2 k q)) + x4 (ix2 (0 : Fin 1) q) := by
  unfold pre
  show (matmul (F := Ideal) dot_S1024x256_S256x47_S1024x47_1_0_0_1_n_n none (truncf .bf16 x0 bitsLt_bf16_f32) x2 (constant S1024x47 .f32 0x00000000#32) (ix2 p q)
        + matmul (F := Ideal) dot_S1024x256_S256x47_S1024x47_1_0_0_1_n_n none (truncf .bf16 x1 bitsLt_bf16_f32) x3 (constant S1024x47 .f32 0x00000000#32) (ix2 p q))
        + broadcastTo S1024x47 x4 broadcasts_S1x47_S1024x47 (ix2 p q) = _
  rw [mm_apply, mm_apply, broadcastTo_1b_ab_apply]
  rfl

/-- The row-wise epilogue of a block h, as the body spells it: h minus its row maximum, minus the logarithm of the row sum of
    the exponentials of that difference. (The two lane reductions carry their format facts as arguments.) -/
def lsm (hφ : FKind.Formats .f32) (hmax : (0xFF800000#32 : BitVec 32) = FKind.maximumf.neutral .f32 hφ)
    (hadd : (0x00000000#32 : BitVec 32) = FKind.add.neutral .f32 hφ) (h : FVec Ideal S1024x47 .f32) : FVec Ideal S1024x47 .f32 :=
  subf (subf h (broadcastTo S1024x47 (shapeCast S1024x1 (multiReduction .maximumf [1] S1024 h 0xFF800000#32 reduces_S1024x47_S1024 hφ hmax) shapeCasts_S1024_S1024x1) broadcasts_S1024x1_S1024x47))
    (broadcastTo S1024x47 (log (shapeCast S1024x1 (multiReduction .add [1] S1024
        (exp (subf h (broadcastTo S1024x47 (shapeCast S1024x1 (multiReduction .maximumf [1] S1024 h 0xFF800000#32 reduces_S1024x47_S1024 hφ hmax) shapeCasts_S1024_S1024x1) broadcasts_S1024x1_S1024x47)))
        0x00000000#32 reduces_S1024x47_S1024 hφ hadd) shapeCasts_S1024_S1024x1)) broadcasts_S1024x1_S1024x47)

/-- The body's stored value is the epilogue of the pre-activation. -/
theorem pay_eq (x0 x1 : FVec Ideal S1024x256 .f32) (x2 x3 : FVec Ideal S256x47 .bf16) (x4 : FVec Ideal S1x47 .f32) :
    k2_pay1 (F := Ideal) x0 x1 x2 x3 x4 = lsm (.inl rfl) rfl rfl (pre x0 x1 x2 x3 x4) := by
  unfold k2_pay1 lsm pre
  simp only [shapeCast_self]

/-- A vector of one axis stored as a column reads, at row p, the vector at p. -/
theorem col_cast (v : FVec Ideal S1024 .f32) (p : Fin 1024) :
    shapeCast S1024x1 v shapeCasts_S1024_S1024x1 (ix2 p (0 : Fin 1)) = v (ix1 p) := by
  refine shapeCast_apply v shapeCasts_S1024_S1024x1 (ix2 p (0 : Fin 1)) (ix1 p) ?_
  rw [Shape.rowMajor_val_one, Shape.rowMajor_val_two]
  show p.val = p.val * 1 + 0
  omega

/-- A column broadcast along the channels reads, at (p, q), the column at p. -/
theorem col_bcast (v : FVec Ideal S1024x1 .f32) (p : Fin 1024) (q : Fin 47) :
    broadcastTo S1024x47 v broadcasts_S1024x1_S1024x47 (ix2 p q) = v (ix2 p (0 : Fin 1)) := by
  refine broadcastTo_apply v broadcasts_S1024x1_S1024x47 (ix2 p q) (ix2 p (0 : Fin 1)) fun ax => ?_
  match ax with
  | ⟨0, _⟩ => show p.val = if (1024 : Nat) = 1 then 0 else p.val; rw [if_neg (by decide)]
  | ⟨1, _⟩ => show 0 = if (1 : Nat) = 1 then 0 else q.val; rw [if_pos rfl]

/-- A row's maximum: the fold of max over the channels, from the starting word's value. -/
theorem row_max (h : FVec Ideal S1024x47 .f32) (hφ : FKind.Formats .f32) (hacc : (0xFF800000#32 : BitVec 32) = FKind.maximumf.neutral .f32 hφ) (p : Fin 1024) :
    multiReduction .maximumf [1] S1024 h 0xFF800000#32 reduces_S1024x47_S1024 hφ hacc (ix1 p)
      = (Finset.univ : Finset (Fin 47)).fold max (Ideal.ofBits .f32 0xFF800000#32) (fun j => h (ix2 p j)) :=
  (Ideal.multiReduction_maximumf_single h 0xFF800000#32 reduces_S1024x47_S1024 hφ hacc (ix1 p)).trans
    (congrArg (fun f => (Finset.univ : Finset (Fin 47)).fold max (Ideal.ofBits .f32 0xFF800000#32) f)
      (funext fun k => congrArg h (funext fun a => Fin.ext (by match a with | ⟨0, _⟩ => rfl | ⟨1, _⟩ => rfl))))

/-- A row's sum over the channels. -/
theorem row_sum (h : FVec Ideal S1024x47 .f32) (hφ : FKind.Formats .f32) (hacc : (0x00000000#32 : BitVec 32) = FKind.add.neutral .f32 hφ) (p : Fin 1024) :
    multiReduction .add [1] S1024 h 0x00000000#32 reduces_S1024x47_S1024 hφ hacc (ix1 p) = ∑ j : Fin 47, h (ix2 p j) :=
  (Ideal.multiReduction_add_single h 0x00000000#32 reduces_S1024x47_S1024 hφ hacc (ix1 p)).trans
    (Finset.sum_congr rfl fun k _ => congrArg h (funext fun a => Fin.ext (by match a with | ⟨0, _⟩ => rfl | ⟨1, _⟩ => rfl)))

theorem log_apply {s : Shape} (v : FVec Ideal s .f32) (i : s.Idx) : log v i = Ideal.log (v i) := rfl
theorem exp_apply {s : Shape} (v : FVec Ideal s .f32) (i : s.Idx) : exp v i = Ideal.exp (v i) := rfl

/-- The epilogue read at row p, column q. -/
theorem lsm_apply (hφ : FKind.Formats .f32) (hmax : (0xFF800000#32 : BitVec 32) = FKind.maximumf.neutral .f32 hφ)
    (hadd : (0x00000000#32 : BitVec 32) = FKind.add.neutral .f32 hφ) (h : FVec Ideal S1024x47 .f32) (p : Fin 1024) (q : Fin 47) :
    lsm hφ hmax hadd h (ix2 p q)
      = (h (ix2 p q) - (Finset.univ : Finset (Fin 47)).fold max (Ideal.ofBits .f32 0xFF800000#32) (fun j => h (ix2 p j)))
        - Ideal.log (∑ j : Fin 47, Ideal.exp (h (ix2 p j) - (Finset.univ : Finset (Fin 47)).fold max (Ideal.ofBits .f32 0xFF800000#32) (fun j' => h (ix2 p j')))) := by
  unfold lsm
  simp only [ValueIdx.subf_apply, col_bcast, log_apply, col_cast]
  rw [row_sum]
  simp only [exp_apply, ValueIdx.subf_apply, col_bcast, col_cast]
  rw [row_max]

/-- Where each window's block sits at point t: the two feature windows and the result move down the rows with t, the weights
    and the bias stay put. Decided over the grid. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem t_lt (t : Fin cfg2.N) : t.val < 1 := by
  have h := t.isLt
  have hN : cfg2.N = 1 := N_2
  omega

variable (V : (c : Dev nD) → (b : Ref sig .tc) → Buf (Elt Ideal) ((c : Thread nD τ).loc b))

/-- The five arrays the call is entered with. -/
abbrev arrA (c : Dev nD) : Sage.Arr 1024 256 := V c (Pipeline.arrRef spec2 0)
abbrev arrX (c : Dev nD) : Sage.Arr 1024 256 := V c (Pipeline.arrRef spec2 1)
abbrev arrWl (c : Dev nD) : Sage.Arr 256 47 := V c (Pipeline.arrRef spec2 2)
abbrev arrWr (c : Dev nD) : Sage.Arr 256 47 := V c (Pipeline.arrRef spec2 3)
abbrev arrB (c : Dev nD) : Sage.Arr 1 47 := V c (Pipeline.arrRef spec2 4)

/-- Block t of the aggregated features is rows t·1024 … of the array. -/
theorem blk_0 (c : Dev nD) (t : Fin cfg2.N) (p : Fin 1024) (k : Fin 256) (r : Fin 1024) (hr : r.val = t.val * 1024 + p.val) :
    (iblk2 V c 0 t : Vec Ideal S1024x256 .f32) (ix2 p k) = arrA V c (ix2 r k) := by
  obtain ⟨e0, e1, -⟩ := idx_facts t
  unfold iblk2
  rw [View.read_apply]
  refine congrArg (V c (Pipeline.arrRef spec2 0)) (funext fun a => Fin.ext ?_)
  match a with
  | ⟨0, _⟩ => show win2_0.index t (0 : Fin 2) * 1024 + 1 * p.val = r.val; rw [e0, hr]; omega
  | ⟨1, _⟩ => show win2_0.index t (1 : Fin 2) * 256 + 1 * k.val = k.val; rw [e1]; omega

/-- Block t of the nodes' own features likewise. -/
theorem blk_1 (c : Dev nD) (t : Fin cfg2.N) (p : Fin 1024) (k : Fin 256) (r : Fin 1024) (hr : r.val = t.val * 1024 + p.val) :
    (iblk2 V c 1 t : Vec Ideal S1024x256 .f32) (ix2 p k) = arrX V c (ix2 r k) := by
  obtain ⟨-, -, e0, e1, -⟩ := idx_facts t
  unfold iblk2
  rw [View.read_apply]
  refine congrArg (V c (Pipeline.arrRef spec2 1)) (funext fun a => Fin.ext ?_)
  match a with
  | ⟨0, _⟩ => show win2_1.index t (0 : Fin 2) * 1024 + 1 * p.val = r.val; rw [e0, hr]; omega
  | ⟨1, _⟩ => show win2_1.index t (1 : Fin 2) * 256 + 1 * k.val = k.val; rw [e1]; omega

/-- The weight windows and the bias window are the whole arrays at every point. -/
theorem blk_2 (c : Dev nD) (t : Fin cfg2.N) (k : Fin 256) (q : Fin 47) :
    (iblk2 V c 2 t : Vec Ideal S256x47 .bf16) (ix2 k q) = arrWl V c (ix2 k q) := by
  obtain ⟨-, -, -, -, e0, e1, -⟩ := idx_facts t
  unfold iblk2
  rw [View.read_apply]
  refine congrArg (V c (Pipeline.arrRef spec2 2)) (funext fun a => Fin.ext ?_)
  match a with
  | ⟨0, _⟩ => show win2_2.index t (0 : Fin 2) * 256 + 1 * k.val = k.val; rw [e0]; omega
  | ⟨1, _⟩ => show win2_2.index t (1 : Fin 2) * 47 + 1 * q.val = q.val; rw [e1]; omega

theorem blk_3 (c : Dev nD) (t : Fin cfg2.N) (k : Fin 256) (q : Fin 47) :
    (iblk2 V c 3 t : Vec Ideal S256x47 .bf16) (ix2 k q) = arrWr V c (ix2 k q) := by
  obtain ⟨-, -, -, -, -, -, e0, e1, -⟩ := idx_facts t
  unfold iblk2
  rw [View.read_apply]
  refine congrArg (V c (Pipeline.arrRef spec2 3)) (funext fun a => Fin.ext ?_)
  match a with
  | ⟨0, _⟩ => show win2_3.index t (0 : Fin 2) * 256 + 1 * k.val = k.val; rw [e0]; omega
  | ⟨1, _⟩ => show win2_3.index t (1 : Fin 2) * 47 + 1 * q.val = q.val; rw [e1]; omega

theorem blk_4 (c : Dev nD) (t : Fin cfg2.N) (q : Fin 47) :
    (iblk2 V c 4 t : Vec Ideal S1x47 .f32) (ix2 (0 : Fin 1) q) = arrB V c (ix2 (0 : Fin 1) q) := by
  obtain ⟨-, -, -, -, -, -, -, -, e0, e1, -⟩ := idx_facts t
  unfold iblk2
  rw [View.read_apply]
  refine congrArg (V c (Pipeline.arrRef spec2 4)) (funext fun a => Fin.ext ?_)
  match a with
  | ⟨0, _⟩ => show win2_4.index t (0 : Fin 2) * 1 + 1 * 0 = 0; rw [e0]
  | ⟨1, _⟩ => show win2_4.index t (1 : Fin 2) * 47 + 1 * q.val = q.val; rw [e1]; omega

/-- The layer's result array as one function of the arrays the call is entered with. -/
abbrev G (c : Dev nD) : Sage.Arr 1024 47 :=
  Sage.logSoftmax (Ideal.ofBits .f32 0xFF800000#32) (Ideal.ofBits .f32 0x00000000#32) (arrA V c) (arrX V c) (arrWl V c) (arrWr V c) (arrB V c)

/-- What point t writes back is block t of `G`. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S1024x256) hz, View.ld_unit_zero (S := S256x47) hz, View.ld_unit_zero (S := S1x47) hz]
  funext j
  obtain ⟨p, q, rfl⟩ : ∃ (p : Fin 1024) (q : Fin 47), j = ix2 p q := ⟨j 0, j 1, eq_ix2 j⟩
  have ht := t_lt t
  obtain ⟨-, -, -, -, -, -, -, -, -, -, e0, e1⟩ := idx_facts t
  have hemb : ((cfg2.win 5).blk t).view.emb (ix2 p q) = ix2 (⟨t.val * 1024 + p.val, by have := p.isLt; omega⟩ : Fin 1024) q := by
    funext a; apply Fin.ext
    match a with
    | ⟨0, _⟩ => show win2_5.index t (0 : Fin 2) * 1024 + 1 * p.val = t.val * 1024 + p.val; rw [e0]; omega
    | ⟨1, _⟩ => show win2_5.index t (1 : Fin 2) * 47 + 1 * q.val = q.val; rw [e1]; omega
  show k2_pay1 (F := Ideal) (iblk2 V c 0 t) (iblk2 V c 1 t) (iblk2 V c 2 t) (iblk2 V c 3 t) (iblk2 V c 4 t) (ix2 p q)
      = G V c (((cfg2.win 5).blk t).view.emb (ix2 p q))
  rw [hemb]
  refine (congrFun (pay_eq (iblk2 V c 0 t) (iblk2 V c 1 t) (iblk2 V c 2 t) (iblk2 V c 3 t) (iblk2 V c 4 t)) (ix2 p q)).trans ?_
  refine (lsm_apply _ _ _ (pre (iblk2 V c 0 t) (iblk2 V c 1 t) (iblk2 V c 2 t) (iblk2 V c 3 t) (iblk2 V c 4 t)) p q).trans ?_
  refine Eq.trans ?_ (Sage.logSoftmax_ix2 (Ideal.ofBits .f32 0xFF800000#32) (Ideal.ofBits .f32 0x00000000#32) (arrA V c) (arrX V c) (arrWl V c) (arrWr V c) (arrB V c)
    (⟨t.val * 1024 + p.val, by have := p.isLt; omega⟩ : Fin 1024) q).symm
  unfold Sage.rowMax Sage.linAt
  rw [Ideal.ofBits_zero_f32, zero_add]
  simp only [pre_apply, blk_0 V c t _ _ ⟨t.val * 1024 + p.val, by have := p.isLt; omega⟩ rfl, blk_1 V c t _ _ ⟨t.val * 1024 + p.val, by have := p.isLt; omega⟩ rfl,
    blk_2 V c t, blk_3 V c t, blk_4 V c t]

/-- An index of the result array is in point t's block iff its row is in rows t·1024 … and its column anywhere. -/
theorem mem_blk (t : Fin cfg2.N) (i : S1024x47.Idx) :
    i ∈ ((cfg2.win 5).blk t).view.set ↔ ∀ a : Fin 2, win2_5.index t a * S1024x47.size a ≤ (i a).val ∧ (i a).val < win2_5.index t a * S1024x47.size a + S1024x47.size a := by
  show i ∈ ((View.whole main_v89).slice (win2_5.rect t)).set ↔ _
  rw [View.set_slice_whole, Rect.mem_set_unit]
  exact Iff.rfl

/-- Every index of the result array lies in the block of row / 1024. -/
theorem cover (i : S1024x47.Idx) : ∃ t : Fin cfg2.N, (cfg2.win 5).flush t = true ∧ i ∈ ((cfg2.win 5).blk t).view.set := by
  have hi0 : (i 0).val < 1024 := (i 0).isLt
  have hi1 : (i 1).val < 47 := (i 1).isLt
  have hN : cfg2.N = 1 := N_2
  refine ⟨⟨(i 0).val / 1024, by rw [hN]; omega⟩, flush2_5 _, ?_⟩
  rw [mem_blk]
  obtain ⟨-, -, -, -, -, -, -, -, -, -, e0, e1⟩ := idx_facts ⟨(i 0).val / 1024, by rw [hN]; omega⟩
  intro a
  match a with
  | ⟨0, _⟩ =>
    show win2_5.index _ (0 : Fin 2) * 1024 ≤ (i 0).val ∧ (i 0).val < win2_5.index _ (0 : Fin 2) * 1024 + 1024
    rw [e0]; show (i 0).val / 1024 * 1024 ≤ (i 0).val ∧ (i 0).val < (i 0).val / 1024 * 1024 + 1024; omega
  | ⟨1, _⟩ =>
    show win2_5.index _ (1 : Fin 2) * 47 ≤ (i 1).val ∧ (i 1).val < win2_5.index _ (1 : Fin 2) * 47 + 47
    rw [e1]; omega

/-- THE RESULT ARRAY after the call: `G` of the arrays the call was entered with. -/
theorem final (c : Dev nD) : (dat2 V c).arrAt 5 cfg2.N = G V c :=
  (dat2 V c).arrAt_eq_of_cover 5 (G V c) (fun t _ => flushed_eq V c t) cover

end Cert.KernelIdeal.Sage2

end
-- ==== Proof.SageKernelValue.lean ====
/-
  The idealized kernel's result, as the reference's own function of the thirteen arguments.

  The run's final buffers are a fold through six segments (host operations, a product call, host operations, …). Walking the
  fold: the first stretch of host operations leaves, in the five buffers the first call reads, exactly the reference's stages
  for the aggregated features, the first rows of x, the two transposed weight matrices (a change of float format is the
  identity on extended reals) and the bias row (a reshape where the reference broadcasts: the same row). The call then leaves
  `Sage.relu` of those five arrays in its result, which is the reference's first hidden layer. The second stretch reads that
  result and the arguments, which no segment has written, and so on: the same step three times, the last with the log-softmax.
-/
import proofs.«125615_j27264452395336_1_alg».proof.Proof.Gen.KernelIdeal.Frame
import proofs.«125615_j27264452395336_1_alg».proof.Proof.SageLayer0
import proofs.«125615_j27264452395336_1_alg».proof.Proof.SageLayer1
import proofs.«125615_j27264452395336_1_alg».proof.Proof.SageLayer2
import proofs.«125615_j27264452395336_1_alg».proof.Proof.SageRef
import Idealize.ShloMosaic.Lib.StableHlo.Run
import Idealize.ShloMosaic.Lib.Pipeline.Value
import Idealize.ShloMosaic.Lib.ValueIdx
import Idealize.ShloMosaic.Lib.ValueLayout

set_option maxRecDepth 65536

noncomputable section

open Idealize.ShloMosaic Idealize.ShloMosaic.TcCoe Idealize.SL.Sem Idealize.ShloMosaic.StableHlo
open Idealize.ShloMosaic.ValueIdx

namespace Cert.KernelIdeal.SageValue

open Cert.KernelIdeal Cert.KernelIdeal.Gen

variable (m : (ℓ : Loc nD τ sig) → Buf (Elt Ideal) ℓ) (ρ : Dev nD → PrngReg) (c : Dev nD)

/-! ## The first layer -/

set_option maxHeartbeats 8000000 in
/-- The aggregated features the first call reads: gather by source, scatter-add by target, divided by the clamped counts. -/
theorem in0_A : (V1 m ρ c main_v22 : Sage.Arr 112640 128) = Cert.ReferenceIdeal.ReadP.val_main_v23 (F := Ideal) (m ((c : Thread nD τ).loc main_arg0)) (m ((c : Thread nD τ).loc main_arg1)) := by
  show StableHlo.after hostOps0 (W0 m ρ c) (Proc.devRef .tc main_v22) = _
  after_results_simp
  all_goals rfl

set_option maxHeartbeats 8000000 in
/-- The target nodes' own features: the first rows of x. -/
theorem in0_X : (V1 m ρ c main_v23 : Sage.Arr 112640 128) = Cert.ReferenceIdeal.ReadP.val_main_v0 (F := Ideal) (m ((c : Thread nD τ).loc main_arg0)) := by
  show StableHlo.after hostOps0 (W0 m ρ c) (Proc.devRef .tc main_v23) = _
  after_results_simp
  all_goals rfl

set_option maxHeartbeats 8000000 in
/-- The first weight matrix, transposed. -/
theorem in0_Wl : (V1 m ρ c main_v26 : Sage.Arr 128 256) = Cert.ReferenceIdeal.ReadP.val_main_v24 (F := Ideal) (m ((c : Thread nD τ).loc main_arg4)) := by
  show StableHlo.after hostOps0 (W0 m ρ c) (Proc.devRef .tc main_v26) = _
  after_results_simp
  all_goals rfl

set_option maxHeartbeats 8000000 in
/-- The second weight matrix, transposed. -/
theorem in0_Wr : (V1 m ρ c main_v27 : Sage.Arr 128 256) = Cert.ReferenceIdeal.ReadP.val_main_v29 (F := Ideal) (m ((c : Thread nD τ).loc main_arg6)) := by
  show StableHlo.after hostOps0 (W0 m ρ c) (Proc.devRef .tc main_v27) = _
  after_results_simp
  all_goals rfl

set_option maxHeartbeats 8000000 in
/-- The bias as a row. -/
theorem in0_b : (V1 m ρ c main_v28 : Sage.Arr 1 256) = Cert.ReferenceIdeal.ReadP.val_main_v26 (F := Ideal) (m ((c : Thread nD τ).loc main_arg5)) := by
  have e : (V1 m ρ c main_v28 : Sage.Arr 1 256) = shapeCast ⟨2, ![1, 256]⟩ ((m ((c : Thread nD τ).loc main_arg5)) : (⟨1, ![256]⟩ : Shape).Idx → EReal) shapeCasts_S256_S1x256 := by
    show StableHlo.after hostOps0 (W0 m ρ c) (Proc.devRef .tc main_v28) = _
    after_results_simp
    all_goals rfl
  rw [e]
  funext i
  obtain ⟨u, q, rfl⟩ : ∃ (u : Fin 1) (q : Fin 256), i = ix2 u q := ⟨i 0, i 1, eq_ix2 i⟩
  rw [shapeCast_a_1a_apply, Cert.ReferenceIdeal.ReadP.val_main_v26_apply]
  exact congrArg _ (funext fun a => Fin.ext (by match a with | ⟨0, _⟩ => rfl))

/-- The first call's result is the reference's first hidden layer. -/
theorem out0 : (W2 m ρ c (Proc.devRef .tc main_v29) : Sage.Arr 112640 256) = Cert.ReferenceIdeal.ReadP.val_main_v32 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  refine (W2_arr m ρ c 5).trans ?_
  refine (Sage0.final (V1 m ρ) c).trans ?_
  show Sage.relu (Ideal.ofBits .f32 0x00000000#32) (V1 m ρ c main_v22 : Sage.Arr 112640 128) (V1 m ρ c main_v23 : Sage.Arr 112640 128) (V1 m ρ c main_v26 : Sage.Arr 128 256) (V1 m ρ c main_v27 : Sage.Arr 128 256) (V1 m ρ c main_v28 : Sage.Arr 1 256) = _
  rw [in0_A m ρ c, in0_X m ρ c, in0_Wl m ρ c, in0_Wr m ρ c, in0_b m ρ c]
  exact (Cert.ReferenceIdeal.SageRef.relu0 (m ((c : Thread nD τ).loc main_arg0)) (m ((c : Thread nD τ).loc main_arg1)) (m ((c : Thread nD τ).loc main_arg4)) (m ((c : Thread nD τ).loc main_arg5)) (m ((c : Thread nD τ).loc main_arg6))).symm

/-! ## The second layer -/

theorem W2_arg2 : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results_simp <;> rfl)

theorem W2_arg7 : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp <;> rfl)

theorem W2_arg8 : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results_simp <;> rfl)

theorem W2_arg9 : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results_simp <;> rfl)

set_option maxHeartbeats 8000000 in
/-- The aggregated features of the second layer, over the first layer's result. -/
theorem in1_A : (V3 m ρ c main_v52 : Sage.Arr 11264 256) = Cert.ReferenceIdeal.ReadP.val_main_v56 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  show StableHlo.after hostOps1 (W2 m ρ c) (Proc.devRef .tc main_v52) = _
  after_results_simp
  all_goals try rw [out0 m ρ c, W2_arg2 m ρ c]
  all_goals rfl

set_option maxHeartbeats 8000000 in
/-- The first rows of the first layer's result. -/
theorem in1_X : (V3 m ρ c main_v53 : Sage.Arr 11264 256) = Cert.ReferenceIdeal.ReadP.val_main_v33 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  show StableHlo.after hostOps1 (W2 m ρ c) (Proc.devRef .tc main_v53) = _
  after_results_simp
  all_goals try rw [out0 m ρ c]
  all_goals rfl

set_option maxHeartbeats 8000000 in
/-- The first weight matrix of the second layer, transposed. -/
theorem in1_Wl : (V3 m ρ c main_v56 : Sage.Arr 256 256) = Cert.ReferenceIdeal.ReadP.val_main_v57 (F := Ideal) (m ((c : Thread nD τ).loc main_arg7)) := by
  show StableHlo.after hostOps1 (W2 m ρ c) (Proc.devRef .tc main_v56) = _
  after_results_simp
  all_goals try rw [W2_arg7 m ρ c]
  all_goals rfl

set_option maxHeartbeats 8000000 in
/-- The second weight matrix of the second layer, transposed. -/
theorem in1_Wr : (V3 m ρ c main_v57 : Sage.Arr 256 256) = Cert.ReferenceIdeal.ReadP.val_main_v62 (F := Ideal) (m ((c : Thread nD τ).loc main_arg9)) := by
  show StableHlo.after hostOps1 (W2 m ρ c) (Proc.devRef .tc main_v57) = _
  after_results_simp
  all_goals try rw [W2_arg9 m ρ c]
  all_goals rfl

set_option maxHeartbeats 8000000 in
/-- The second layer's bias as a row. -/
theorem in1_b : (V3 m ρ c main_v58 : Sage.Arr 1 256) = Cert.ReferenceIdeal.ReadP.val_main_v59 (F := Ideal) (m ((c : Thread nD τ).loc main_arg8)) := by
  have e : (V3 m ρ c main_v58 : Sage.Arr 1 256) = shapeCast ⟨2, ![1, 256]⟩ ((m ((c : Thread nD τ).loc main_arg8)) : (⟨1, ![256]⟩ : Shape).Idx → EReal) shapeCasts_S256_S1x256 := by
    show StableHlo.after hostOps1 (W2 m ρ c) (Proc.devRef .tc main_v58) = _
    after_results_simp
    all_goals try rw [W2_arg8 m ρ c]
    all_goals rfl
  rw [e]
  funext i
  obtain ⟨u, q, rfl⟩ : ∃ (u : Fin 1) (q : Fin 256), i = ix2 u q := ⟨i 0, i 1, eq_ix2 i⟩
  rw [shapeCast_a_1a_apply, Cert.ReferenceIdeal.ReadP.val_main_v59_apply]
  exact congrArg _ (funext fun a => Fin.ext (by match a with | ⟨0, _⟩ => rfl))

/-- The second call's result is the reference's second hidden layer. -/
theorem out1 : (W4 m ρ c (Proc.devRef .tc main_v59) : Sage.Arr 11264 256) = Cert.ReferenceIdeal.ReadP.val_main_v65 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 5).trans ?_
  refine (Sage1.final (V3 m ρ) c).trans ?_
  show Sage.relu (Ideal.ofBits .f32 0x00000000#32) (V3 m ρ c main_v52 : Sage.Arr 11264 256) (V3 m ρ c main_v53 : Sage.Arr 11264 256) (V3 m ρ c main_v56 : Sage.Arr 256 256) (V3 m ρ c main_v57 : Sage.Arr 256 256) (V3 m ρ c main_v58 : Sage.Arr 1 256) = _
  rw [in1_A m ρ c, in1_X m ρ c, in1_Wl m ρ c, in1_Wr m ρ c, in1_b m ρ c]
  exact (Cert.ReferenceIdeal.SageRef.relu1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm

/-! ## The last layer -/

theorem W2_arg3 : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results_simp <;> rfl)

theorem W4_arg3 : W4 m ρ c (Proc.devRef .tc main_arg3) = m ((c : Thread nD τ).loc main_arg3) :=
  (W4_of_ne m ρ c main_arg3 (by decide)).trans ((by
    show StableHlo.after hostOps1 (W2 m ρ c) (Proc.devRef .tc main_arg3) = W2 m ρ c (Proc.devRef .tc main_arg3)
    after_results_simp <;> rfl : W3 m ρ c (Proc.devRef .tc main_arg3) = W2 m ρ c (Proc.devRef .tc main_arg3)).trans (W2_arg3 m ρ c))

theorem W2_arg10 : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results_simp <;> rfl)

theorem W4_arg10 : W4 m ρ c (Proc.devRef .tc main_arg10) = m ((c : Thread nD τ).loc main_arg10) :=
  (W4_of_ne m ρ c main_arg10 (by decide)).trans ((by
    show StableHlo.after hostOps1 (W2 m ρ c) (Proc.devRef .tc main_arg10) = W2 m ρ c (Proc.devRef .tc main_arg10)
    after_results_simp <;> rfl : W3 m ρ c (Proc.devRef .tc main_arg10) = W2 m ρ c (Proc.devRef .tc main_arg10)).trans (W2_arg10 m ρ c))

theorem W2_arg11 : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results_simp <;> rfl)

theorem W4_arg11 : W4 m ρ c (Proc.devRef .tc main_arg11) = m ((c : Thread nD τ).loc main_arg11) :=
  (W4_of_ne m ρ c main_arg11 (by decide)).trans ((by
    show StableHlo.after hostOps1 (W2 m ρ c) (Proc.devRef .tc main_arg11) = W2 m ρ c (Proc.devRef .tc main_arg11)
    after_results_simp <;> rfl : W3 m ρ c (Proc.devRef .tc main_arg11) = W2 m ρ c (Proc.devRef .tc main_arg11)).trans (W2_arg11 m ρ c))

theorem W2_arg12 : W2 m ρ c (Proc.devRef .tc main_arg12) = m ((c : Thread nD τ).loc main_arg12) :=
  (W2_of_ne m ρ c main_arg12 (by decide)).trans (by
    show StableHlo.after hostOps0 (W0 m ρ c) (Proc.devRef .tc main_arg12) = _
    after_results_simp <;> rfl)

theorem W4_arg12 : W4 m ρ c (Proc.devRef .tc main_arg12) = m ((c : Thread nD τ).loc main_arg12) :=
  (W4_of_ne m ρ c main_arg12 (by decide)).trans ((by
    show StableHlo.after hostOps1 (W2 m ρ c) (Proc.devRef .tc main_arg12) = W2 m ρ c (Proc.devRef .tc main_arg12)
    after_results_simp <;> rfl : W3 m ρ c (Proc.devRef .tc main_arg12) = W2 m ρ c (Proc.devRef .tc main_arg12)).trans (W2_arg12 m ρ c))

set_option maxHeartbeats 8000000 in
/-- The aggregated features of the last layer, over the second layer's result. -/
theorem in2_A : (V5 m ρ c main_v82 : Sage.Arr 1024 256) = Cert.ReferenceIdeal.ReadP.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps2 (W4 m ρ c) (Proc.devRef .tc main_v82) = _
  after_results_simp
  all_goals try rw [out1 m ρ c, W4_arg3 m ρ c]
  all_goals rfl

set_option maxHeartbeats 8000000 in
/-- The first rows of the second layer's result. -/
theorem in2_X : (V5 m ρ c main_v83 : Sage.Arr 1024 256) = Cert.ReferenceIdeal.ReadP.val_main_v66 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps2 (W4 m ρ c) (Proc.devRef .tc main_v83) = _
  after_results_simp
  all_goals try rw [out1 m ρ c]
  all_goals rfl

set_option maxHeartbeats 8000000 in
/-- The first weight matrix of the last layer, transposed. -/
theorem in2_Wl : (V5 m ρ c main_v86 : Sage.Arr 256 47) = Cert.ReferenceIdeal.ReadP.val_main_v90 (F := Ideal) (m ((c : Thread nD τ).loc main_arg10)) := by
  show StableHlo.after hostOps2 (W4 m ρ c) (Proc.devRef .tc main_v86) = _
  after_results_simp
  all_goals try rw [W4_arg10 m ρ c]
  all_goals rfl

set_option maxHeartbeats 8000000 in
/-- The second weight matrix of the last layer, transposed. -/
theorem in2_Wr : (V5 m ρ c main_v87 : Sage.Arr 256 47) = Cert.ReferenceIdeal.ReadP.val_main_v95 (F := Ideal) (m ((c : Thread nD τ).loc main_arg12)) := by
  show StableHlo.after hostOps2 (W4 m ρ c) (Proc.devRef .tc main_v87) = _
  after_results_simp
  all_goals try rw [W4_arg12 m ρ c]
  all_goals rfl

set_option maxHeartbeats 8000000 in
/-- The last layer's bias as a row. -/
theorem in2_b : (V5 m ρ c main_v88 : Sage.Arr 1 47) = Cert.ReferenceIdeal.ReadP.val_main_v92 (F := Ideal) (m ((c : Thread nD τ).loc main_arg11)) := by
  have e : (V5 m ρ c main_v88 : Sage.Arr 1 47) = shapeCast ⟨2, ![1, 47]⟩ ((m ((c : Thread nD τ).loc main_arg11)) : (⟨1, ![47]⟩ : Shape).Idx → EReal) shapeCasts_S47_S1x47 := by
    show StableHlo.after hostOps2 (W4 m ρ c) (Proc.devRef .tc main_v88) = _
    after_results_simp
    all_goals try rw [W4_arg11 m ρ c]
    all_goals rfl
  rw [e]
  funext i
  obtain ⟨u, q, rfl⟩ : ∃ (u : Fin 1) (q : Fin 47), i = ix2 u q := ⟨i 0, i 1, eq_ix2 i⟩
  rw [shapeCast_a_1a_apply, Cert.ReferenceIdeal.ReadP.val_main_v92_apply]
  exact congrArg _ (funext fun a => Fin.ext (by match a with | ⟨0, _⟩ => rfl))

/-- THE RESULT: the last call's result buffer holds the reference's result stage of the launch arguments. -/
theorem result : (W6 m ρ c (Proc.devRef .tc main_v89) : Sage.Arr 1024 47) = Cert.ReferenceIdeal.ReadP.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W6_arr m ρ c 5).trans ?_
  refine (Sage2.final (V5 m ρ) c).trans ?_
  show Sage.logSoftmax (Ideal.ofBits .f32 0xFF800000#32) (Ideal.ofBits .f32 0x00000000#32) (V5 m ρ c main_v82 : Sage.Arr 1024 256) (V5 m ρ c main_v83 : Sage.Arr 1024 256) (V5 m ρ c main_v86 : Sage.Arr 256 47) (V5 m ρ c main_v87 : Sage.Arr 256 47) (V5 m ρ c main_v88 : Sage.Arr 1 47) = _
  rw [in2_A m ρ c, in2_X m ρ c, in2_Wl m ρ c, in2_Wr m ρ c, in2_b m ρ c]
  exact (Cert.ReferenceIdeal.SageRef.lsm2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))).symm

end Cert.KernelIdeal.SageValue

end
-- ==== Proof.lean ====
/-
  Three mean-aggregation graph layers with two dense products each, on the device and on the host: the same function.

  Both programs compute, layer by layer, h' = act (mean_agg(h) · Wlᵀ + h[:n] · Wrᵀ + b): the aggregation (gather by source
  node, scatter-add by target node, division by the clamped in-degree) is the same sequence of host operations in both; the
  dense part runs on the device as a tiled product kernel per layer and on the host as two whole contractions. On extended
  reals the two dense parts are one function (Proof/SageSpec.lean): a change of float format is the identity, a product tile's
  sum over the contracted axis is the whole contraction's, the bias may be added before or after the second product, and the
  reference's extra maximum with -∞ in its log-softmax changes nothing. No law used needs finite inputs.

  The modules: SageSpec (the layer as a function), SageLayer0/1/2 (each device call's result array is that function of the
  arrays it was entered with), SageRef (each reference layer is that function of its own stages), SageKernelValue (the device
  program's final result buffer, walked back through its six segments, is the reference's result stage of the arguments),
  SageKernelRun (the device program's run with the result buffer kept), RefRunP / RefReadP (the reference's run and its stages).
-/
import proofs.«125615_j27264452395336_1_alg».proof.Defs
import proofs.«125615_j27264452395336_1_alg».proof.Proof.Gen.Kernel
import proofs.«125615_j27264452395336_1_alg».proof.Proof.Gen.Kernel.Skeleton
import proofs.«125615_j27264452395336_1_alg».proof.Proof.Gen.Kernel.Launch
import proofs.«125615_j27264452395336_1_alg».proof.Proof.Gen.Kernel.Points
import proofs.«125615_j27264452395336_1_alg».proof.Proof.Gen.Kernel.Frame
import proofs.«125615_j27264452395336_1_alg».proof.Proof.Gen.KernelIdeal
import proofs.«125615_j27264452395336_1_alg».proof.Proof.Gen.KernelIdeal.Skeleton
import proofs.«125615_j27264452395336_1_alg».proof.Proof.Gen.KernelIdeal.Launch
import proofs.«125615_j27264452395336_1_alg».proof.Proof.Gen.KernelIdeal.Points
import proofs.«125615_j27264452395336_1_alg».proof.Proof.Gen.KernelIdeal.Frame
import proofs.«125615_j27264452395336_1_alg».proof.Proof.Gen.ReferenceIdeal
import proofs.«125615_j27264452395336_1_alg».proof.Proof.Gen.Pre_finite_inputs
import proofs.«125615_j27264452395336_1_alg».proof.Proof.RefRunP
import proofs.«125615_j27264452395336_1_alg».proof.Proof.RefReadP
import proofs.«125615_j27264452395336_1_alg».proof.Proof.SageRef
import proofs.«125615_j27264452395336_1_alg».proof.Proof.SageKernelRun
import proofs.«125615_j27264452395336_1_alg».proof.Proof.SageKernelValue
import Idealize.ShloMosaic.Adequacy
import Idealize.ShloMosaic.Init

noncomputable section

namespace Cert.Proof

open Idealize.ShloMosaic Idealize.ShloMosaic.TcCoe Idealize.SL.Sem

/-- The device program as printed: terminates, nothing faults, the arguments end unchanged. -/
theorem frame_k : Cert.frame_Kernel := fun m ρ _ => Cert.Kernel.Gen.frame m ρ

/-- The idealized device program likewise. -/
theorem frame_ki : Cert.frame_KernelIdeal := fun m ρ _ => Cert.KernelIdeal.Gen.frame m ρ

/-- The idealized reference: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation of the device program. -/
theorem preserves : Cert.preserves_Kernel_KernelIdeal := trivial

/-- From memories agreeing on the arguments both idealized programs end with the same result: the reference's result stage of
    the arguments — the device's final buffer is that stage (`SageValue.result`), the reference's run states it. -/
theorem algebraic : Cert.algebraic_KernelIdeal_ReferenceIdeal := by
  intro m ρ m' ρ' _ hagree
  refine ⟨fun c => Cert.ReferenceIdeal.ReadP.val_main_v98 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.SageValue.result m ρ c), (h c).2⟩)
      (Cert.KernelIdeal.SageRun.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11, e12⟩ := hagree c
    rw [Cert.ReferenceIdeal.ReadP.val_main_v98_eq, e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
